-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x8192x1024 .f32) (main_arg1 : FVec F S8192x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x8192x1024 : Shape := ⟨3, ![4, 8192, 1024]⟩
abbrev S8192x1024 : Shape := ⟨2, ![8192, 1024]⟩
abbrev S1x8192x1024 : Shape := ⟨3, ![1, 8192, 1024]⟩
abbrev S16x1024 : Shape := ⟨2, ![16, 1024]⟩
abbrev S_ : Shape := ⟨0, ![]⟩
abbrev S1x16x1024 : Shape := ⟨3, ![1, 16, 1024]⟩

abbrev nBuf : Table → Nat
  | .hbm => 3
  | .local .scVector .vmem => 7
  | _ => 0

abbrev bufTy : (tb : Table) → Fin (nBuf tb) → BufTy
  | .hbm, ⟨0, _⟩ => ⟨S4x8192x1024, .f32⟩
  | .hbm, ⟨1, _⟩ => ⟨S8192x1024, .f32⟩
  | .hbm, ⟨2, _⟩ => ⟨S1x8192x1024, .f32⟩
  | .local .scVector .vmem, ⟨0, _⟩ => ⟨S16x1024, .f32⟩
  | .local .scVector .vmem, ⟨1, _⟩ => ⟨S16x1024, .f32⟩
  | .local .scVector .vmem, ⟨2, _⟩ => ⟨S16x1024, .f32⟩
  | .local .scVector .vmem, ⟨3, _⟩ => ⟨S16x1024, .f32⟩
  | .local .scVector .vmem, ⟨4, _⟩ => ⟨S16x1024, .f32⟩
  | .local .scVector .vmem, ⟨5, _⟩ => ⟨S16x1024, .f32⟩
  | .local .scVector .vmem, ⟨6, _⟩ => ⟨S16x1024, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v3 : BitVec 32 := Scalar.addi v2 c0_i32
  let c0_i32_0 : BitVec 32 := 0#32
  ![v3.toNat, 0]
def k0_off2 (i : grid0.Coords) (c0_i32_14 : BitVec 32) : Fin 3 → Nat :=
  let c0_i32_15 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v23 : BitVec 32 := Scalar.addi v2 c0_i32_14
  let c0_i32_16 : BitVec 32 := 0#32
  ![0, v23.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x16x1024_S16x1024 : S1x16x1024.Squeezes S16x1024
  hcc0_scratch7 : 0 + S_.numel ≤ 14
  hcc0_scratch8 : 1 + S_.numel ≤ 14
  hcc0_scratch9 : 2 + S_.numel ≤ 14
  hcc0_scratch10 : 3 + S_.numel ≤ 14
  hcc0_scratch11 : 4 + S_.numel ≤ 14
  hcc0_scratch12 : 5 + S_.numel ≤ 14
  hcc0_scratch13 : 6 + S_.numel ≤ 14
  hcc0_scratch14 : 7 + S_.numel ≤ 14
  hcc0_scratch15 : 8 + S_.numel ≤ 14
  hcc0_scratch16 : 9 + S_.numel ≤ 14
  hcc0_scratch17 : 10 + S_.numel ≤ 14
  hcc0_scratch18 : 11 + S_.numel ≤ 14
  hcc0_scratch19 : 12 + S_.numel ≤ 14
  hcc0_scratch20 : 13 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 16), ∀ a, (k0_off1 i (BitVec.ofNat 32 (16 * r.val))) a + S16x1024.size a ≤ S8192x1024.size a
  k0_off2_inb : ∀ i : grid0.Coords, ∀ (r : Fin 16), ∀ a, (k0_off2 i (BitVec.ofNat 32 (16 * r.val))) a + S1x16x1024.size a ≤ S1x8192x1024.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scratch13 : DmaSems sig S_ := SemArray.consecutive 6 S_ hcc0_scratch13
abbrev cc0_scratch14 : DmaSems sig S_ := SemArray.consecutive 7 S_ hcc0_scratch14
abbrev cc0_scratch15 : DmaSems sig S_ := SemArray.consecutive 8 S_ hcc0_scratch15
abbrev cc0_scratch16 : DmaSems sig S_ := SemArray.consecutive 9 S_ hcc0_scratch16
abbrev cc0_scratch17 : DmaSems sig S_ := SemArray.consecutive 10 S_ hcc0_scratch17
abbrev cc0_scratch18 : DmaSems sig S_ := SemArray.consecutive 11 S_ hcc0_scratch18
abbrev cc0_scratch19 : DmaSems sig S_ := SemArray.consecutive 12 S_ hcc0_scratch19
abbrev cc0_scratch20 : DmaSems sig S_ := SemArray.consecutive 13 S_ hcc0_scratch20

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.Spec.lean ====
/-
  The function both programs compute: the result array, of shape [1, 8192, 1024], holds at the entry
  (0, r, k) the table's entry (r, k). The kernel reaches it by moving the table's rows, sixteen at a
  time, through a vector subcore's buffers into the result; the reference by looking up row number r
  of the table for every r from 0 to 8191, in order, and adding a leading axis of extent one.
-/
import Idealize.ShloMosaic.Lib.ValueIdx

namespace Cert.Spec

open Idealize.ShloMosaic

/-- The table's shape. -/
abbrev St : Shape := ⟨2, ![8192, 1024]⟩
/-- The result's shape. -/
abbrev So : Shape := ⟨3, ![1, 8192, 1024]⟩

/-- The table entry an entry of the result copies: its row and its column, the leading coordinate dropped. -/
def rc (j : So.Idx) : St.Idx := ValueIdx.ix2 (n0 := 8192) (n1 := 1024) (j 1) (j 2)

/-- The result as a function of the table: entry (0, r, k) is the table's entry (r, k). -/
def G {α : Type} (t : St.Idx → α) : So.Idx → α := fun j => t (rc j)

theorem G_apply {α : Type} (t : St.Idx → α) (j : So.Idx) : G t j = t (rc j) := rfl

end Cert.Spec
-- ==== Proof.KI.Setup.lean ====
/-
  The kernel's program as the launch theorem reads it, and the pieces of the two HBM arrays the
  vector subcores work on. Thirty-two vector subcores (two SparseCores of sixteen) each move 256 rows
  of the table, sixteen rows at a time: vector subcore s of SparseCore c moves the rows from
  512 s + 256 c, chunk r the sixteen rows from 512 s + 256 c + 16 r. A chunk of the table and the
  chunk of the result it lands in are named here exactly as the program slices them.
-/
import proofs.«213541_g83141976916863_cont_9to1c4b_20_9_alg».proof.KernelIdeal
import Idealize.ShloMosaic.Lib.SparseCore.Launch
import Idealize.ShloMosaic.Lib.StableHlo.Run
import Idealize.ShloMosaic.Lib.Pipeline.Kit
import Idealize.ShloMosaic.Lib.Tactic
import proofs.«213541_g83141976916863_cont_9to1c4b_20_9_alg».proof.Proof.Gen.KernelIdeal
import proofs.«213541_g83141976916863_cont_9to1c4b_20_9_alg».proof.Proof.Gen.KernelIdeal.Skeleton
import proofs.«213541_g83141976916863_cont_9to1c4b_20_9_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays and their chunks -/

abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The table and the result whole, as a vector subcore names them. -/
abbrev tV : Memref sig .scVector .hbm S8192x1024 .f32 := Memref.whole main_arg1_scv
abbrev oV : Memref sig .scVector .hbm S1x8192x1024 .f32 := Memref.whole main_v0_scv

/-- A vector subcore's grid coordinates: its SparseCore, its number within it. -/
def coordsV (c : Fin (grid0.bound 0)) (s : Fin (grid0.bound 1)) : grid0.Coords :=
  fun | 0 => c | 1 => s | ⟨_ + 2, h⟩ => absurd h (Nat.not_lt.2 (Nat.le_add_left _ _))

/-- Chunk `r` of the table rows of the vector subcore at `L`: sixteen whole rows. -/
abbrev tRect (L : grid0.Coords) (r : Fin 16) : Rect S8192x1024 :=
  Rect.unit (s := S8192x1024) (k0_off1 L (BitVec.ofNat 32 (16 * r.val))) S16x1024.size (k0_off1_inb L r)
/-- The same sixteen rows of the result, under its leading axis of extent one. -/
abbrev oRect (L : grid0.Coords) (r : Fin 16) : Rect S1x8192x1024 :=
  Rect.unit (s := S1x8192x1024) (k0_off2 L (BitVec.ofNat 32 (16 * r.val))) S1x16x1024.size (k0_off2_inb L r)

abbrev tChunk (L : grid0.Coords) (r : Fin 16) : Memref sig .scVector .hbm S16x1024 .f32 :=
  (tV).slice (tRect L r) (fun _ => rfl)
abbrev oChunk (L : grid0.Coords) (r : Fin 16) : Memref sig .scVector .hbm S16x1024 .f32 :=
  ((oV).slice (oRect L r) (fun _ => rfl)).squeeze S16x1024 squeezes_S1x16x1024_S16x1024

/-- The entries of the table chunk, and of the result chunk. -/
abbrev tSet (L : grid0.Coords) (r : Fin 16) : Finset S8192x1024.Idx := (tChunk L r).view.set
abbrev oSet (L : grid0.Coords) (r : Fin 16) : Finset S1x8192x1024.Idx := (oChunk L r).view.set

end Cert.Proof.KI

end
-- ==== Proof.KI.Chunks.lean ====
/-
  The two HBM arrays cut into the sixteen-row chunks the vector subcores move. A chunk is named by the
  SparseCore c, the vector subcore s and the chunk number r; it holds the rows from 512 s + 256 c + 16 r
  up to (not including) sixteen more, every column of them. Here: which entries a chunk holds, that the
  512 chunks of either array are pairwise disjoint and between them hold every entry, so that owning
  the whole array is owning its chunks separately, and that entry y of a result chunk lies over entry y
  of the table chunk of the same name once the result's leading coordinate is dropped.
-/
import proofs.«213541_g83141976916863_cont_9to1c4b_20_9_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A vector subcore's coordinates -/

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- The names of the 512 chunks: SparseCore, vector subcore, chunk number. -/
abbrev ChunkName : Type := Fin (grid0.bound 0) × Fin (grid0.bound 1) × Fin 16

/-! ## The entries of a chunk -/

/-- A table chunk holds the entries whose row is one of its sixteen. -/
theorem mem_tSet (L : grid0.Coords) (r : Fin 16) (i : S8192x1024.Idx) :
    i ∈ tSet L r ↔ 512 * (L 1).val + 256 * (L 0).val + 16 * r.val ≤ (i 0).val
      ∧ (i 0).val < 512 * (L 1).val + 256 * (L 0).val + 16 * r.val + 16 := by
  have hset : tSet L r = (tRect L r).set := View.set_slice_whole main_arg1_scv (tRect L r)
  rw [hset, Rect.mem_set_unit, k0_off1_eq]
  constructor
  · intro h; exact h 0
  · intro h a
    match a with
    | ⟨0, _⟩ => exact h
    | ⟨1, _⟩ =>
      refine ⟨Nat.zero_le _, ?_⟩
      have h1 : (i 1).val < 1024 := (i 1).isLt
      show (i 1).val < 0 + 1024
      omega

/-- A result chunk holds the entries whose row (the middle coordinate) is one of its sixteen. -/
theorem mem_oSet (L : grid0.Coords) (r : Fin 16) (i : S1x8192x1024.Idx) :
    i ∈ oSet L r ↔ 512 * (L 1).val + 256 * (L 0).val + 16 * r.val ≤ (i 1).val
      ∧ (i 1).val < 512 * (L 1).val + 256 * (L 0).val + 16 * r.val + 16 := by
  have hset : oSet L r = (oRect L r).set := by
    show (((View.whole main_v0_scv).slice (oRect L r)).reshape S16x1024
      squeezes_S1x16x1024_S16x1024.numel_eq).set = _
    rw [View.set_reshape, View.set_slice_whole]
  rw [hset, Rect.mem_set_unit, k0_off2_eq]
  constructor
  · intro h; exact h 1
  · intro h a
    match a with
    | ⟨0, _⟩ =>
      refine ⟨Nat.zero_le _, ?_⟩
      have h0 : (i 0).val < 1 := (i 0).isLt
      show (i 0).val < 0 + 1
      omega
    | ⟨1, _⟩ => exact h
    | ⟨2, _⟩ =>
      refine ⟨Nat.zero_le _, ?_⟩
      have h2 : (i 2).val < 1024 := (i 2).isLt
      show (i 2).val < 0 + 1024
      omega

/-! ## The chunks are disjoint and hold everything -/

/-- Two chunks of sixteen rows from 512 s + 256 c + 16 r that share a row have the same name. -/
theorem name_eq_of_common_row {t t' : ChunkName} {x : ℕ}
    (h : 512 * t.2.1.val + 256 * t.1.val + 16 * t.2.2.val ≤ x
      ∧ x < 512 * t.2.1.val + 256 * t.1.val + 16 * t.2.2.val + 16)
    (h' : 512 * t'.2.1.val + 256 * t'.1.val + 16 * t'.2.2.val ≤ x
      ∧ x < 512 * t'.2.1.val + 256 * t'.1.val + 16 * t'.2.2.val + 16) : t = t' := by
  obtain ⟨c, s, r⟩ := t
  obtain ⟨c', s', r'⟩ := t'
  have hc : c.val < 2 := c.isLt
  have hc' : c'.val < 2 := c'.isLt
  have hr : r.val < 16 := r.isLt
  have hr' : r'.val < 16 := r'.isLt
  simp only at h h'
  have e1 : c = c' := Fin.ext (by omega)
  have e2 : s = s' := Fin.ext (by omega)
  have e3 : r = r' := Fin.ext (by omega)
  rw [e1, e2, e3]

/-- Row x below 8192 lies in the chunk named by its digits: x / 512, then (x / 256) mod 2, then (x / 16) mod 16. -/
theorem exists_name_of_row {x : ℕ} (hx : x < 8192) : ∃ t : ChunkName,
    512 * t.2.1.val + 256 * t.1.val + 16 * t.2.2.val ≤ x
      ∧ x < 512 * t.2.1.val + 256 * t.1.val + 16 * t.2.2.val + 16 := by
  refine ⟨(⟨x / 256 % 2, ?_⟩, ⟨x / 512, ?_⟩, ⟨x / 16 % 16, ?_⟩), ?_⟩
  · show x / 256 % 2 < 2; omega
  · show x / 512 < 16; omega
  · omega
  · show 512 * (x / 512) + 256 * (x / 256 % 2) + 16 * (x / 16 % 16) ≤ x
      ∧ x < 512 * (x / 512) + 256 * (x / 256 % 2) + 16 * (x / 16 % 16) + 16
    omega

theorem tSet_disjoint (t t' : ChunkName) (h : t ≠ t') :
    Disjoint (tSet (coordsV t.1 t.2.1) t.2.2) (tSet (coordsV t'.1 t'.2.1) t'.2.2) := by
  rw [Finset.disjoint_left]
  intro i hi hi'
  rw [mem_tSet, coordsV_zero, coordsV_one] at hi hi'
  exact h (name_eq_of_common_row hi hi')

theorem oSet_disjoint (t t' : ChunkName) (h : t ≠ t') :
    Disjoint (oSet (coordsV t.1 t.2.1) t.2.2) (oSet (coordsV t'.1 t'.2.1) t'.2.2) := by
  rw [Finset.disjoint_left]
  intro i hi hi'
  rw [mem_oSet, coordsV_zero, coordsV_one] at hi hi'
  exact h (name_eq_of_common_row hi hi')

theorem tSet_cover {inst : DecidableEq S8192x1024.Idx} :
    @Finset.biUnion _ _ inst (Finset.univ : Finset ChunkName) (fun t => tSet (coordsV t.1 t.2.1) t.2.2)
      = Finset.univ := by
  ext i
  simp only [Finset.mem_biUnion, Finset.mem_univ, true_and, iff_true]
  obtain ⟨t, ht⟩ := exists_name_of_row (x := (i 0).val) (i 0).isLt
  exact ⟨t, by rw [mem_tSet, coordsV_zero, coordsV_one]; exact ht⟩

theorem oSet_cover {inst : DecidableEq S1x8192x1024.Idx} :
    @Finset.biUnion _ _ inst (Finset.univ : Finset ChunkName) (fun t => oSet (coordsV t.1 t.2.1) t.2.2)
      = Finset.univ := by
  ext i
  simp only [Finset.mem_biUnion, Finset.mem_univ, true_and, iff_true]
  obtain ⟨t, ht⟩ := exists_name_of_row (x := (i 1).val) (i 1).isLt
  exact ⟨t, by rw [mem_oSet, coordsV_zero, coordsV_one]; exact ht⟩

/-! ## Owning an array is owning its chunks -/

/-- The table whole is its 512 chunks. -/
theorem tPts_chunks (d : Dev nD) (f : Buf (Elt F) (tLoc d)) :
    (tLoc d ↦{fullShare} f : sProp 𝕄)
      = bigSep Finset.univ fun c : Fin (grid0.bound 0) => bigSep Finset.univ fun s : Fin (grid0.bound 1) =>
          bigSep Finset.univ fun r : Fin 16 => tLoc d ↦[tSet (coordsV c s) r]{fullShare} f := by
  have h : (tLoc d ↦[(Finset.univ : Finset ChunkName).biUnion fun t => tSet (coordsV t.1 t.2.1) t.2.2]{fullShare} f : sProp 𝕄)
      = bigSep Finset.univ fun t : ChunkName => tLoc d ↦[tSet (coordsV t.1 t.2.1) t.2.2]{fullShare} f :=
    pointsTo_biUnion Finset.univ _ fun t _ t' _ hne => tSet_disjoint t t' hne
  rw [tSet_cover] at h
  refine h.trans ?_
  rw [bigSep_univ_prod]
  congr 1; funext c
  rw [bigSep_univ_prod]

/-- The result whole is its 512 chunks. -/
theorem oPts_chunks (d : Dev nD) (f : Buf (Elt F) (oLoc d)) :
    (oLoc d ↦{fullShare} f : sProp 𝕄)
      = bigSep Finset.univ fun c : Fin (grid0.bound 0) => bigSep Finset.univ fun s : Fin (grid0.bound 1) =>
          bigSep Finset.univ fun r : Fin 16 => oLoc d ↦[oSet (coordsV c s) r]{fullShare} f := by
  have h : (oLoc d ↦[(Finset.univ : Finset ChunkName).biUnion fun t => oSet (coordsV t.1 t.2.1) t.2.2]{fullShare} f : sProp 𝕄)
      = bigSep Finset.univ fun t : ChunkName => oLoc d ↦[oSet (coordsV t.1 t.2.1) t.2.2]{fullShare} f :=
    pointsTo_biUnion Finset.univ _ fun t _ t' _ hne => oSet_disjoint t t' hne
  rw [oSet_cover] at h
  refine h.trans ?_
  rw [bigSep_univ_prod]
  congr 1; funext c
  rw [bigSep_univ_prod]

/-! ## A result chunk lies over the table chunk of the same name -/

/-- Entry y of a result chunk copies entry y of the table chunk of the same number. -/
theorem rc_emb (L : grid0.Coords) (r : Fin 16) (y : S16x1024.Idx) :
    Cert.Spec.rc ((oChunk L r).view.emb y) = (tChunk L r).view.emb y := by
  -- dropping the leading axis of extent one: entry y of [16,1024] is entry (0, y) of [1,16,1024]
  have e := Shape.reshapeEquiv_cons_one (n := 2) (d := ![16, 1024]) squeezes_S1x16x1024_S16x1024.numel_eq y
  -- a unit-stride rectangle places an entry at its offset plus the entry's coordinate, on every axis
  have ho : ∀ a, ((oChunk L r).view.emb y a).val
      = k0_off2 L (BitVec.ofNat 32 (16 * r.val)) a
        + 1 * ((Shape.reshapeEquiv (s := ⟨2 + 1, Matrix.vecCons 1 ![16, 1024]⟩) (s' := ⟨2, ![16, 1024]⟩)
            squeezes_S1x16x1024_S16x1024.numel_eq y) a).val := fun a => rfl
  have ht : ∀ a, ((tChunk L r).view.emb y a).val
      = k0_off1 L (BitVec.ofNat 32 (16 * r.val)) a + 1 * (y a).val := fun a => rfl
  funext a
  apply Fin.ext
  match a with
  | ⟨0, _⟩ =>
    show ((oChunk L r).view.emb y 1).val = ((tChunk L r).view.emb y 0).val
    rw [ho, ht, e, k0_off1_eq, k0_off2_eq]
    rfl
  | ⟨1, _⟩ =>
    show ((oChunk L r).view.emb y 2).val = ((tChunk L r).view.emb y 1).val
    rw [ho, ht, e, k0_off1_eq, k0_off2_eq]
    rfl

end Cert.Proof.KI

end
-- ==== Proof.KI.Body.lean ====
/-
  One vector subcore's task. It is handed its sixteen chunks of the table and the sixteen chunks of the
  result they land in, and owns seven buffers of sixteen rows and fourteen transfer semaphores. Chunk r
  goes table -> buffer r mod 7 -> result, each leg one transfer waited for on a semaphore of its own
  (in-leg r on semaphore r mod 7 of the first seven, out-leg r on semaphore r mod 7 of the last seven).
  A buffer is refilled only after the out-leg that read it has been waited for, and every transfer is
  waited for before the task ends, so no transfer ever meets a store into its source or destination and
  at most one transfer is pending on a semaphore at a time. The task ends with every result chunk holding
  the table chunk of the same number, and the table chunks as they were.
-/
import proofs.«213541_g83141976916863_cont_9to1c4b_20_9_alg».proof.Proof.KI.Setup
import proofs.«213541_g83141976916863_cont_9to1c4b_20_9_alg».proof.Proof.KI.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Finite separating conjunctions written out -/

omit F in
theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  simp (disch := decide) only [SparseCore.bigSep_insert', bigSep_singleton]

omit F in
theorem bigSep_fin14 {M : Type} [URA M] (Φ : Fin 14 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide]
  simp (disch := decide) only [SparseCore.bigSep_insert', bigSep_singleton]

omit F in
theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  simp (disch := decide) only [SparseCore.bigSep_insert', bigSep_singleton]

/-! ## A vector subcore's own storage, piece by piece -/

section Own

variable (d : Dev nD) (c : Fin τ.nSC) (i : Fin τ.nSub)

/-- The seven buffers of a vector subcore, by number. -/
def bufOf : Fin 7 → Ref sig .scVector
  | 0 => cc0_scratch0 | 1 => cc0_scratch1 | 2 => cc0_scratch2 | 3 => cc0_scratch3
  | 4 => cc0_scratch4 | 5 => cc0_scratch5 | 6 => cc0_scratch6

theorem bufOf_injective : Function.Injective bufOf := by unfold Function.Injective; decide

/-- They are among the vector subcore's own buffers. -/
def bufSet : Finset (DevRef τ sig) :=
  Finset.univ.map ⟨fun k => (Proc.scVector c i).devRef (bufOf k), (Proc.devRef_injective _).comp bufOf_injective⟩

theorem bufSet_sub : bufSet c i ⊆ ownRefs (τ := τ) (sig := sig) (.scVector c i) := by
  intro b hb
  obtain ⟨k, -, rfl⟩ := Finset.mem_map.mp hb
  fin_cases k <;> exact SparseCore.Cfg.mem_ownRefs_of_owner (p := Proc.scVector c i) rfl

/-- The vector subcore's own buffers: the seven, each at some contents, and the rest. -/
theorem ownBufs_V :
    (ownBufs (V d c i) : sProp 𝕄)
      = iprop(((∃ f, (Memref.whole cc0_scratch0 : Memref sig .scVector .vmem S16x1024 .f32).view.loc (V d c i) ↦{fullShare} f) ∗ (∃ f, (Memref.whole cc0_scratch1 : Memref sig .scVector .vmem S16x1024 .f32).view.loc (V d c i) ↦{fullShare} f)
          ∗ (∃ f, (Memref.whole cc0_scratch2 : Memref sig .scVector .vmem S16x1024 .f32).view.loc (V d c i) ↦{fullShare} f) ∗ (∃ f, (Memref.whole cc0_scratch3 : Memref sig .scVector .vmem S16x1024 .f32).view.loc (V d c i) ↦{fullShare} f)
          ∗ (∃ f, (Memref.whole cc0_scratch4 : Memref sig .scVector .vmem S16x1024 .f32).view.loc (V d c i) ↦{fullShare} f) ∗ (∃ f, (Memref.whole cc0_scratch5 : Memref sig .scVector .vmem S16x1024 .f32).view.loc (V d c i) ↦{fullShare} f)
          ∗ (∃ f, (Memref.whole cc0_scratch6 : Memref sig .scVector .vmem S16x1024 .f32).view.loc (V d c i) ↦{fullShare} f))
          ∗ bigSep (ownRefs (τ := τ) (.scVector c i) \ bufSet c i) fun b => iprop(∃ f, ((d, b) : Loc nD τ sig) ↦{fullShare} f)) := by
  unfold SparseCore.Cfg.ownBufs
  rw [SparseCore.bigSep_sdiff_split' (bufSet_sub c i)]
  unfold bufSet
  rw [bigSep_map, bigSep_fin7]
  rfl

/-- The fourteen transfer semaphores of a vector subcore are among its own cells. -/
def semSet : Finset (GSem nD τ sig) :=
  Finset.univ.map ⟨fun k : Fin 14 => ((V d c i, SemLoc.dma (k : DmaSem sig)) : GSem nD τ sig), fun a b h => by
    have := (Prod.mk.inj h).2; exact SemLoc.dma.inj this⟩

theorem dma_scoped : ∀ k : Fin 14, (SemLoc.dma (k : DmaSem sig) : SemLoc sig).isScoped .scVector = true := by decide

theorem semSet_sub : semSet d c i ⊆ ownCells (V d c i) := by
  intro g hg
  obtain ⟨k, -, rfl⟩ := Finset.mem_map.mp hg
  exact mem_ownCells.mpr ⟨rfl, dma_scoped k⟩

/-- The vector subcore's own cells at zero: the fourteen, and the rest. -/
theorem ownSems0_V :
    (ownSems0 (V d c i) : sProp 𝕄)
      = iprop((semVal (V d c i, SemLoc.dma cc0_scratch7.sem) 0 ∗ semVal (V d c i, SemLoc.dma cc0_scratch8.sem) 0
          ∗ semVal (V d c i, SemLoc.dma cc0_scratch9.sem) 0 ∗ semVal (V d c i, SemLoc.dma cc0_scratch10.sem) 0
          ∗ semVal (V d c i, SemLoc.dma cc0_scratch11.sem) 0 ∗ semVal (V d c i, SemLoc.dma cc0_scratch12.sem) 0
          ∗ semVal (V d c i, SemLoc.dma cc0_scratch13.sem) 0 ∗ semVal (V d c i, SemLoc.dma cc0_scratch14.sem) 0
          ∗ semVal (V d c i, SemLoc.dma cc0_scratch15.sem) 0 ∗ semVal (V d c i, SemLoc.dma cc0_scratch16.sem) 0
          ∗ semVal (V d c i, SemLoc.dma cc0_scratch17.sem) 0 ∗ semVal (V d c i, SemLoc.dma cc0_scratch18.sem) 0
          ∗ semVal (V d c i, SemLoc.dma cc0_scratch19.sem) 0 ∗ semVal (V d c i, SemLoc.dma cc0_scratch20.sem) 0)
          ∗ bigSep (ownCells (V d c i) \ semSet d c i) fun g => semVal g 0) := by
  unfold SparseCore.Cfg.ownSems0
  rw [SparseCore.bigSep_sdiff_split' (semSet_sub d c i)]
  unfold semSet
  rw [bigSep_map, bigSep_fin14]
  rfl

end Own

/-! ## The task -/

section Tile

variable [FloatOps F]
variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The vector subcore at the grid coordinates `L`. -/
abbrev thr (d : Dev nD) (L : grid0.Coords) : Thread nD τ := V d (cV L) (jV L)

/-- The result as the task leaves it: entry (0, r, k) the table's entry (r, k). -/
def Gout (d : Dev nD) : Buf (Elt F) (oLoc d) := Cert.Spec.G (m (tLoc d))

omit [FloatOps F] in
/-- A result chunk written whole with what its table chunk holds has, at each of its entries, the table's
    entry at that row and column: the chunk's entry y lies over the table chunk's entry y. -/
theorem chunk_value (r : Fin 16) (g : Buf (Elt F) (oLoc d)) (pay : S16x1024.Idx → Elt F .f32)
    (hpay : pay = (tChunk L r).view.read (Elt F) (m (tLoc d))) :
    ∀ j ∈ (oChunk L r).view.set,
      (oChunk L r).view.writes (Elt F) g [⟨Rect.whole S16x1024, pay⟩] j = Gout m d j := by
  subst hpay
  intro j hj
  obtain ⟨y, -, rfl⟩ := Finset.mem_map.mp hj
  -- a read through either chunk's view is the array's entry under the chunk's entry
  have hr : ∀ f : Buf (Elt F) (oLoc d), (oChunk L r).view.read (Elt F) f y = f ((oChunk L r).view.emb y) := fun _ => rfl
  have ht : (tChunk L r).view.read (Elt F) (m (tLoc d)) y = m (tLoc d) ((tChunk L r).view.emb y) := rfl
  have h := View.read_writes_cons_emb (oChunk L r).view g (Rect.whole S16x1024) ((tChunk L r).view.read (Elt F) (m (tLoc d))) [] y
  rw [Rect.emb_whole_apply, hr, ht] at h
  rw [h]
  show _ = m (tLoc d) (Cert.Spec.rc ((oChunk L r).view.emb y))
  rw [rc_emb]

omit [FloatOps F] in
/-- Recording one more wait at the kernels' index keeps every recorded wait old or at that index. -/
theorem waits_ok {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxHeartbeats 1000000 in
/-- THE TASK: from the sixteen table chunks and the sixteen result chunks (at whatever the result held), the
    vector subcore's own storage and what it owes, the kernel runs to its end with every result chunk at the
    table's entries, the table chunks unchanged, its storage handed back, and only waits at the kernels' index
    recorded. -/
theorem tile_body (hF : (K (F := F)).Facts) (O : CellTallies nD τ sig (HIx 1)) (W : Waits sig (HIx 1)) (hO : ∀ g, O g none = 0) :
    iprop(levAts (K (F := F)).L (K (F := F)).lev
        ∗ ((((tChunk L 0).view.loc (thr d L) ↦[(tChunk L 0).view.set]{fullShare} m (tLoc d)) ∗ ((oChunk L 0).view.loc (thr d L) ↦[(oChunk L 0).view.set]{fullShare} m (oLoc d)))
          ∗ (((tChunk L 1).view.loc (thr d L) ↦[(tChunk L 1).view.set]{fullShare} m (tLoc d)) ∗ ((oChunk L 1).view.loc (thr d L) ↦[(oChunk L 1).view.set]{fullShare} m (oLoc d)))
          ∗ (((tChunk L 2).view.loc (thr d L) ↦[(tChunk L 2).view.set]{fullShare} m (tLoc d)) ∗ ((oChunk L 2).view.loc (thr d L) ↦[(oChunk L 2).view.set]{fullShare} m (oLoc d)))
          ∗ (((tChunk L 3).view.loc (thr d L) ↦[(tChunk L 3).view.set]{fullShare} m (tLoc d)) ∗ ((oChunk L 3).view.loc (thr d L) ↦[(oChunk L 3).view.set]{fullShare} m (oLoc d)))
          ∗ (((tChunk L 4).view.loc (thr d L) ↦[(tChunk L 4).view.set]{fullShare} m (tLoc d)) ∗ ((oChunk L 4).view.loc (thr d L) ↦[(oChunk L 4).view.set]{fullShare} m (oLoc d)))
          ∗ (((tChunk L 5).view.loc (thr d L) ↦[(tChunk L 5).view.set]{fullShare} m (tLoc d)) ∗ ((oChunk L 5).view.loc (thr d L) ↦[(oChunk L 5).view.set]{fullShare} m (oLoc d)))
          ∗ (((tChunk L 6).view.loc (thr d L) ↦[(tChunk L 6).view.set]{fullShare} m (tLoc d)) ∗ ((oChunk L 6).view.loc (thr d L) ↦[(oChunk L 6).view.set]{fullShare} m (oLoc d)))
          ∗ (((tChunk L 7).view.loc (thr d L) ↦[(tChunk L 7).view.set]{fullShare} m (tLoc d)) ∗ ((oChunk L 7).view.loc (thr d L) ↦[(oChunk L 7).view.set]{fullShare} m (oLoc d)))
          ∗ (((tChunk L 8).view.loc (thr d L) ↦[(tChunk L 8).view.set]{fullShare} m (tLoc d)) ∗ ((oChunk L 8).view.loc (thr d L) ↦[(oChunk L 8).view.set]{fullShare} m (oLoc d)))
          ∗ (((tChunk L 9).view.loc (thr d L) ↦[(tChunk L 9).view.set]{fullShare} m (tLoc d)) ∗ ((oChunk L 9).view.loc (thr d L) ↦[(oChunk L 9).view.set]{fullShare} m (oLoc d)))
          ∗ (((tChunk L 10).view.loc (thr d L) ↦[(tChunk L 10).view.set]{fullShare} m (tLoc d)) ∗ ((oChunk L 10).view.loc (thr d L) ↦[(oChunk L 10).view.set]{fullShare} m (oLoc d)))
          ∗ (((tChunk L 11).view.loc (thr d L) ↦[(tChunk L 11).view.set]{fullShare} m (tLoc d)) ∗ ((oChunk L 11).view.loc (thr d L) ↦[(oChunk L 11).view.set]{fullShare} m (oLoc d)))
          ∗ (((tChunk L 12).view.loc (thr d L) ↦[(tChunk L 12).view.set]{fullShare} m (tLoc d)) ∗ ((oChunk L 12).view.loc (thr d L) ↦[(oChunk L 12).view.set]{fullShare} m (oLoc d)))
          ∗ (((tChunk L 13).view.loc (thr d L) ↦[(tChunk L 13).view.set]{fullShare} m (tLoc d)) ∗ ((oChunk L 13).view.loc (thr d L) ↦[(oChunk L 13).view.set]{fullShare} m (oLoc d)))
          ∗ (((tChunk L 14).view.loc (thr d L) ↦[(tChunk L 14).view.set]{fullShare} m (tLoc d)) ∗ ((oChunk L 14).view.loc (thr d L) ↦[(oChunk L 14).view.set]{fullShare} m (oLoc d)))
          ∗ (((tChunk L 15).view.loc (thr d L) ↦[(tChunk L 15).view.set]{fullShare} m (tLoc d)) ∗ ((oChunk L 15).view.loc (thr d L) ↦[(oChunk L 15).view.set]{fullShare} m (oLoc d))))
        ∗ scopedBufs (thr d L) ∗ scopedSems0 (thr d L) ∗ owes (thr d L) O W)
      ⊢ wp frame (wpE (defs₀ (F := F)) 𝒱₀ (thr d L) none) Set.univ
          (cc0__copy_rows L tV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20)
          fun _ => (iprop(((((tChunk L 0).view.loc (thr d L) ↦[(tChunk L 0).view.set]{fullShare} m (tLoc d)) ∗ ((oChunk L 0).view.loc (thr d L) ↦[(oChunk L 0).view.set]{fullShare} Gout m d))
              ∗ (((tChunk L 1).view.loc (thr d L) ↦[(tChunk L 1).view.set]{fullShare} m (tLoc d)) ∗ ((oChunk L 1).view.loc (thr d L) ↦[(oChunk L 1).view.set]{fullShare} Gout m d))
              ∗ (((tChunk L 2).view.loc (thr d L) ↦[(tChunk L 2).view.set]{fullShare} m (tLoc d)) ∗ ((oChunk L 2).view.loc (thr d L) ↦[(oChunk L 2).view.set]{fullShare} Gout m d))
              ∗ (((tChunk L 3).view.loc (thr d L) ↦[(tChunk L 3).view.set]{fullShare} m (tLoc d)) ∗ ((oChunk L 3).view.loc (thr d L) ↦[(oChunk L 3).view.set]{fullShare} Gout m d))
              ∗ (((tChunk L 4).view.loc (thr d L) ↦[(tChunk L 4).view.set]{fullShare} m (tLoc d)) ∗ ((oChunk L 4).view.loc (thr d L) ↦[(oChunk L 4).view.set]{fullShare} Gout m d))
              ∗ (((tChunk L 5).view.loc (thr d L) ↦[(tChunk L 5).view.set]{fullShare} m (tLoc d)) ∗ ((oChunk L 5).view.loc (thr d L) ↦[(oChunk L 5).view.set]{fullShare} Gout m d))
              ∗ (((tChunk L 6).view.loc (thr d L) ↦[(tChunk L 6).view.set]{fullShare} m (tLoc d)) ∗ ((oChunk L 6).view.loc (thr d L) ↦[(oChunk L 6).view.set]{fullShare} Gout m d))
              ∗ (((tChunk L 7).view.loc (thr d L) ↦[(tChunk L 7).view.set]{fullShare} m (tLoc d)) ∗ ((oChunk L 7).view.loc (thr d L) ↦[(oChunk L 7).view.set]{fullShare} Gout m d))
              ∗ (((tChunk L 8).view.loc (thr d L) ↦[(tChunk L 8).view.set]{fullShare} m (tLoc d)) ∗ ((oChunk L 8).view.loc (thr d L) ↦[(oChunk L 8).view.set]{fullShare} Gout m d))
              ∗ (((tChunk L 9).view.loc (thr d L) ↦[(tChunk L 9).view.set]{fullShare} m (tLoc d)) ∗ ((oChunk L 9).view.loc (thr d L) ↦[(oChunk L 9).view.set]{fullShare} Gout m d))
              ∗ (((tChunk L 10).view.loc (thr d L) ↦[(tChunk L 10).view.set]{fullShare} m (tLoc d)) ∗ ((oChunk L 10).view.loc (thr d L) ↦[(oChunk L 10).view.set]{fullShare} Gout m d))
              ∗ (((tChunk L 11).view.loc (thr d L) ↦[(tChunk L 11).view.set]{fullShare} m (tLoc d)) ∗ ((oChunk L 11).view.loc (thr d L) ↦[(oChunk L 11).view.set]{fullShare} Gout m d))
              ∗ (((tChunk L 12).view.loc (thr d L) ↦[(tChunk L 12).view.set]{fullShare} m (tLoc d)) ∗ ((oChunk L 12).view.loc (thr d L) ↦[(oChunk L 12).view.set]{fullShare} Gout m d))
              ∗ (((tChunk L 13).view.loc (thr d L) ↦[(tChunk L 13).view.set]{fullShare} m (tLoc d)) ∗ ((oChunk L 13).view.loc (thr d L) ↦[(oChunk L 13).view.set]{fullShare} Gout m d))
              ∗ (((tChunk L 14).view.loc (thr d L) ↦[(tChunk L 14).view.set]{fullShare} m (tLoc d)) ∗ ((oChunk L 14).view.loc (thr d L) ↦[(oChunk L 14).view.set]{fullShare} Gout m d))
              ∗ (((tChunk L 15).view.loc (thr d L) ↦[(tChunk L 15).view.set]{fullShare} m (tLoc d)) ∗ ((oChunk L 15).view.loc (thr d L) ↦[(oChunk L 15).view.set]{fullShare} Gout m d)))
            ∗ scopedBufs (thr d L) ∗ scopedSems0 (thr d L)
            ∗ ∃ W', ⌜∀ p ∈ W', p ∈ W ∨ p.2 = none⌝ ∗ owes (thr d L) O W') : sProp 𝕄) := by
  rw [cc0__copy_rows_eq_skeleton]; unfold cc0__copy_rows_skel
  rw [(K (F := F)).scopedBufs_V hF d (cV L) (jV L), SparseCore.Cfg.scopedSems0_V (Val := Elt F) d (cV L) (jV L), ownSems0_V, ownBufs_V]
  iintro ⟨#Hlv, ⟨⟨Ht0, Ho0⟩, ⟨Ht1, Ho1⟩, ⟨Ht2, Ho2⟩, ⟨Ht3, Ho3⟩, ⟨Ht4, Ho4⟩, ⟨Ht5, Ho5⟩, ⟨Ht6, Ho6⟩, ⟨Ht7, Ho7⟩, ⟨Ht8, Ho8⟩, ⟨Ht9, Ho9⟩, ⟨Ht10, Ho10⟩, ⟨Ht11, Ho11⟩, ⟨Ht12, Ho12⟩, ⟨Ht13, Ho13⟩, ⟨Ht14, Ho14⟩, ⟨Ht15, Ho15⟩⟩,
    ⟨⟨⟨%f0, Hb0⟩, ⟨%f1, Hb1⟩, ⟨%f2, Hb2⟩, ⟨%f3, Hb3⟩, ⟨%f4, Hb4⟩, ⟨%f5, Hb5⟩, ⟨%f6, Hb6⟩⟩, Hbrest⟩,
    ⟨⟨Hs7, Hs8, Hs9, Hs10, Hs11, Hs12, Hs13, Hs14, Hs15, Hs16, Hs17, Hs18, Hs19, Hs20⟩, Hsrest⟩, HO⟩
  ihave Hmw := ((K (F := F)).mayWaits_none (thr := thr d L) hO) $$ Hlv
  sl_exec
  -- what each out-leg carried is what the in-leg of the same chunk read off the table
  have hp0 : tile_body.sl.dma0_6 m d L f0 = (tChunk L 0).view.read (Elt F) (m (tLoc d)) := by
    unfold tile_body.sl.dma0_6; rw [ReadAs.apply_same, View.read_write_univ]
    unfold tile_body.sl.dma0; rw [ReadAs.apply_same]; rfl
  have hp1 : tile_body.sl.dma0_8 m d L f1 = (tChunk L 1).view.read (Elt F) (m (tLoc d)) := by
    unfold tile_body.sl.dma0_8; rw [ReadAs.apply_same, View.read_write_univ]
    unfold tile_body.sl.dma0_1; rw [ReadAs.apply_same]; rfl
  have hp2 : tile_body.sl.dma0_10 m d L f2 = (tChunk L 2).view.read (Elt F) (m (tLoc d)) := by
    unfold tile_body.sl.dma0_10; rw [ReadAs.apply_same, View.read_write_univ]
    unfold tile_body.sl.dma0_2; rw [ReadAs.apply_same]; rfl
  have hp3 : tile_body.sl.dma0_12 m d L f3 = (tChunk L 3).view.read (Elt F) (m (tLoc d)) := by
    unfold tile_body.sl.dma0_12; rw [ReadAs.apply_same, View.read_write_univ]
    unfold tile_body.sl.dma0_3; rw [ReadAs.apply_same]; rfl
  have hp4 : tile_body.sl.dma0_14 m d L f4 = (tChunk L 4).view.read (Elt F) (m (tLoc d)) := by
    unfold tile_body.sl.dma0_14; rw [ReadAs.apply_same, View.read_write_univ]
    unfold tile_body.sl.dma0_4; rw [ReadAs.apply_same]; rfl
  have hp5 : tile_body.sl.dma0_16 m d L f5 = (tChunk L 5).view.read (Elt F) (m (tLoc d)) := by
    unfold tile_body.sl.dma0_16; rw [ReadAs.apply_same, View.read_write_univ]
    unfold tile_body.sl.dma0_5; rw [ReadAs.apply_same]; rfl
  have hp6 : tile_body.sl.dma0_18 m d L f6 = (tChunk L 6).view.read (Elt F) (m (tLoc d)) := by
    unfold tile_body.sl.dma0_18; rw [ReadAs.apply_same, View.read_write_univ]
    unfold tile_body.sl.dma0_7; rw [ReadAs.apply_same]; rfl
  have hp7 : tile_body.sl.dma0_20 m d L f0 = (tChunk L 7).view.read (Elt F) (m (tLoc d)) := by
    unfold tile_body.sl.dma0_20; rw [ReadAs.apply_same, View.read_write_univ]
    unfold tile_body.sl.dma0_9; rw [ReadAs.apply_same]; rfl
  have hp8 : tile_body.sl.dma0_22 m d L f1 = (tChunk L 8).view.read (Elt F) (m (tLoc d)) := by
    unfold tile_body.sl.dma0_22; rw [ReadAs.apply_same, View.read_write_univ]
    unfold tile_body.sl.dma0_11; rw [ReadAs.apply_same]; rfl
  have hp9 : tile_body.sl.dma0_24 m d L f2 = (tChunk L 9).view.read (Elt F) (m (tLoc d)) := by
    unfold tile_body.sl.dma0_24; rw [ReadAs.apply_same, View.read_write_univ]
    unfold tile_body.sl.dma0_13; rw [ReadAs.apply_same]; rfl
  have hp10 : tile_body.sl.dma0_26 m d L f3 = (tChunk L 10).view.read (Elt F) (m (tLoc d)) := by
    unfold tile_body.sl.dma0_26; rw [ReadAs.apply_same, View.read_write_univ]
    unfold tile_body.sl.dma0_15; rw [ReadAs.apply_same]; rfl
  have hp11 : tile_body.sl.dma0_27 m d L f4 = (tChunk L 11).view.read (Elt F) (m (tLoc d)) := by
    unfold tile_body.sl.dma0_27; rw [ReadAs.apply_same, View.read_write_univ]
    unfold tile_body.sl.dma0_17; rw [ReadAs.apply_same]; rfl
  have hp12 : tile_body.sl.dma0_28 m d L f5 = (tChunk L 12).view.read (Elt F) (m (tLoc d)) := by
    unfold tile_body.sl.dma0_28; rw [ReadAs.apply_same, View.read_write_univ]
    unfold tile_body.sl.dma0_19; rw [ReadAs.apply_same]; rfl
  have hp13 : tile_body.sl.dma0_29 m d L f6 = (tChunk L 13).view.read (Elt F) (m (tLoc d)) := by
    unfold tile_body.sl.dma0_29; rw [ReadAs.apply_same, View.read_write_univ]
    unfold tile_body.sl.dma0_21; rw [ReadAs.apply_same]; rfl
  have hp14 : tile_body.sl.dma0_30 m d L f0 = (tChunk L 14).view.read (Elt F) (m (tLoc d)) := by
    unfold tile_body.sl.dma0_30; rw [ReadAs.apply_same, View.read_write_univ]
    unfold tile_body.sl.dma0_23; rw [ReadAs.apply_same]; rfl
  have hp15 : tile_body.sl.dma0_31 m d L f1 = (tChunk L 15).view.read (Elt F) (m (tLoc d)) := by
    unfold tile_body.sl.dma0_31; rw [ReadAs.apply_same, View.read_write_univ]
    unfold tile_body.sl.dma0_25; rw [ReadAs.apply_same]; rfl
  ihave Ho0 := (Entails.of_eq (pointsTo_congr (chunk_value m d L 0 _ _ hp0))) $$ Ho0
  ihave Ho1 := (Entails.of_eq (pointsTo_congr (chunk_value m d L 1 _ _ hp1))) $$ Ho1
  ihave Ho2 := (Entails.of_eq (pointsTo_congr (chunk_value m d L 2 _ _ hp2))) $$ Ho2
  ihave Ho3 := (Entails.of_eq (pointsTo_congr (chunk_value m d L 3 _ _ hp3))) $$ Ho3
  ihave Ho4 := (Entails.of_eq (pointsTo_congr (chunk_value m d L 4 _ _ hp4))) $$ Ho4
  ihave Ho5 := (Entails.of_eq (pointsTo_congr (chunk_value m d L 5 _ _ hp5))) $$ Ho5
  ihave Ho6 := (Entails.of_eq (pointsTo_congr (chunk_value m d L 6 _ _ hp6))) $$ Ho6
  ihave Ho7 := (Entails.of_eq (pointsTo_congr (chunk_value m d L 7 _ _ hp7))) $$ Ho7
  ihave Ho8 := (Entails.of_eq (pointsTo_congr (chunk_value m d L 8 _ _ hp8))) $$ Ho8
  ihave Ho9 := (Entails.of_eq (pointsTo_congr (chunk_value m d L 9 _ _ hp9))) $$ Ho9
  ihave Ho10 := (Entails.of_eq (pointsTo_congr (chunk_value m d L 10 _ _ hp10))) $$ Ho10
  ihave Ho11 := (Entails.of_eq (pointsTo_congr (chunk_value m d L 11 _ _ hp11))) $$ Ho11
  ihave Ho12 := (Entails.of_eq (pointsTo_congr (chunk_value m d L 12 _ _ hp12))) $$ Ho12
  ihave Ho13 := (Entails.of_eq (pointsTo_congr (chunk_value m d L 13 _ _ hp13))) $$ Ho13
  ihave Ho14 := (Entails.of_eq (pointsTo_congr (chunk_value m d L 14 _ _ hp14))) $$ Ho14
  ihave Ho15 := (Entails.of_eq (pointsTo_congr (chunk_value m d L 15 _ _ hp15))) $$ Ho15
  sl_step
  isplitl [Ht0 Ho0 Ht1 Ho1 Ht2 Ho2 Ht3 Ho3 Ht4 Ho4 Ht5 Ho5 Ht6 Ho6 Ht7 Ho7 Ht8 Ho8 Ht9 Ho9 Ht10 Ho10 Ht11 Ho11 Ht12 Ho12 Ht13 Ho13 Ht14 Ho14 Ht15 Ho15]
  · skip
    isplitl [Ht0 Ho0]
    · isplitl [Ht0]; · iexact Ht0
      iexact Ho0
    isplitl [Ht1 Ho1]
    · isplitl [Ht1]; · iexact Ht1
      iexact Ho1
    isplitl [Ht2 Ho2]
    · isplitl [Ht2]; · iexact Ht2
      iexact Ho2
    isplitl [Ht3 Ho3]
    · isplitl [Ht3]; · iexact Ht3
      iexact Ho3
    isplitl [Ht4 Ho4]
    · isplitl [Ht4]; · iexact Ht4
      iexact Ho4
    isplitl [Ht5 Ho5]
    · isplitl [Ht5]; · iexact Ht5
      iexact Ho5
    isplitl [Ht6 Ho6]
    · isplitl [Ht6]; · iexact Ht6
      iexact Ho6
    isplitl [Ht7 Ho7]
    · isplitl [Ht7]; · iexact Ht7
      iexact Ho7
    isplitl [Ht8 Ho8]
    · isplitl [Ht8]; · iexact Ht8
      iexact Ho8
    isplitl [Ht9 Ho9]
    · isplitl [Ht9]; · iexact Ht9
      iexact Ho9
    isplitl [Ht10 Ho10]
    · isplitl [Ht10]; · iexact Ht10
      iexact Ho10
    isplitl [Ht11 Ho11]
    · isplitl [Ht11]; · iexact Ht11
      iexact Ho11
    isplitl [Ht12 Ho12]
    · isplitl [Ht12]; · iexact Ht12
      iexact Ho12
    isplitl [Ht13 Ho13]
    · isplitl [Ht13]; · iexact Ht13
      iexact Ho13
    isplitl [Ht14 Ho14]
    · isplitl [Ht14]; · iexact Ht14
      iexact Ho14
    isplitl [Ht15]; · iexact Ht15
    iexact Ho15
  isplitl [Hb0 Hb1 Hb2 Hb3 Hb4 Hb5 Hb6 Hbrest]
  · isplitl [Hb0 Hb1 Hb2 Hb3 Hb4 Hb5 Hb6]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      iexists _; iexact Hb6
    iexact Hbrest
  isplitl [Hs7 Hs8 Hs9 Hs10 Hs11 Hs12 Hs13 Hs14 Hs15 Hs16 Hs17 Hs18 Hs19 Hs20 Hsrest]
  · isplitl [Hs7 Hs8 Hs9 Hs10 Hs11 Hs12 Hs13 Hs14 Hs15 Hs16 Hs17 Hs18 Hs19 Hs20]
    · isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      iexact Hs20
    iexact Hsrest
  iexists _; isplitr
  swap
  · iexact HO
  · ipureintro
    repeat (first | exact fun p hp => .inl hp | refine waits_ok _ ?_)

end Tile

end Cert.Proof.KI

end
-- ==== Proof.KI.Launch.lean ====
/-
  The whole program's run. The TensorCore hands the two SparseCores the table and the result cut into
  their 512 chunks, each SparseCore hands each of its sixteen vector subcores the thirty-two chunks of its
  task, every task ends with its result chunks at the table's entries, and the chunks come back the same
  way: the result whole then holds, at every entry (0, r, k), the table's entry (r, k), and the two
  argument arrays are as they were. No thread signals another beyond the launch's own handshakes, so
  the kernel owes the launch nothing and brings no ghost state of its own.
-/
import proofs.«213541_g83141976916863_cont_9to1c4b_20_9_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- A task's operands: its sixteen table chunks, and its sixteen result chunks at what the result held. -/
def goRes (d : Dev nD) (L : grid0.Coords) : sProp 𝕄 :=
  bigSep Finset.univ fun r : Fin 16 =>
    iprop((tLoc d ↦[tSet L r]{fullShare} m (tLoc d)) ∗ (oLoc d ↦[oSet L r]{fullShare} m (oLoc d)))

/-- A task's results: the table chunks as they were, the result chunks at the table's entries. -/
def tdRes (d : Dev nD) (L : grid0.Coords) : sProp 𝕄 :=
  bigSep Finset.univ fun r : Fin 16 =>
    iprop((tLoc d ↦[tSet L r]{fullShare} m (tLoc d)) ∗ (oLoc d ↦[oSet L r]{fullShare} Gout m d))

theorem goRes_eq (d : Dev nD) (L : grid0.Coords) :
    goRes m d L = iprop((((tChunk L 0).view.loc (thr d L) ↦[(tChunk L 0).view.set]{fullShare} m (tLoc d)) ∗ ((oChunk L 0).view.loc (thr d L) ↦[(oChunk L 0).view.set]{fullShare} m (oLoc d)))
          ∗ (((tChunk L 1).view.loc (thr d L) ↦[(tChunk L 1).view.set]{fullShare} m (tLoc d)) ∗ ((oChunk L 1).view.loc (thr d L) ↦[(oChunk L 1).view.set]{fullShare} m (oLoc d)))
          ∗ (((tChunk L 2).view.loc (thr d L) ↦[(tChunk L 2).view.set]{fullShare} m (tLoc d)) ∗ ((oChunk L 2).view.loc (thr d L) ↦[(oChunk L 2).view.set]{fullShare} m (oLoc d)))
          ∗ (((tChunk L 3).view.loc (thr d L) ↦[(tChunk L 3).view.set]{fullShare} m (tLoc d)) ∗ ((oChunk L 3).view.loc (thr d L) ↦[(oChunk L 3).view.set]{fullShare} m (oLoc d)))
          ∗ (((tChunk L 4).view.loc (thr d L) ↦[(tChunk L 4).view.set]{fullShare} m (tLoc d)) ∗ ((oChunk L 4).view.loc (thr d L) ↦[(oChunk L 4).view.set]{fullShare} m (oLoc d)))
          ∗ (((tChunk L 5).view.loc (thr d L) ↦[(tChunk L 5).view.set]{fullShare} m (tLoc d)) ∗ ((oChunk L 5).view.loc (thr d L) ↦[(oChunk L 5).view.set]{fullShare} m (oLoc d)))
          ∗ (((tChunk L 6).view.loc (thr d L) ↦[(tChunk L 6).view.set]{fullShare} m (tLoc d)) ∗ ((oChunk L 6).view.loc (thr d L) ↦[(oChunk L 6).view.set]{fullShare} m (oLoc d)))
          ∗ (((tChunk L 7).view.loc (thr d L) ↦[(tChunk L 7).view.set]{fullShare} m (tLoc d)) ∗ ((oChunk L 7).view.loc (thr d L) ↦[(oChunk L 7).view.set]{fullShare} m (oLoc d)))
          ∗ (((tChunk L 8).view.loc (thr d L) ↦[(tChunk L 8).view.set]{fullShare} m (tLoc d)) ∗ ((oChunk L 8).view.loc (thr d L) ↦[(oChunk L 8).view.set]{fullShare} m (oLoc d)))
          ∗ (((tChunk L 9).view.loc (thr d L) ↦[(tChunk L 9).view.set]{fullShare} m (tLoc d)) ∗ ((oChunk L 9).view.loc (thr d L) ↦[(oChunk L 9).view.set]{fullShare} m (oLoc d)))
          ∗ (((tChunk L 10).view.loc (thr d L) ↦[(tChunk L 10).view.set]{fullShare} m (tLoc d)) ∗ ((oChunk L 10).view.loc (thr d L) ↦[(oChunk L 10).view.set]{fullShare} m (oLoc d)))
          ∗ (((tChunk L 11).view.loc (thr d L) ↦[(tChunk L 11).view.set]{fullShare} m (tLoc d)) ∗ ((oChunk L 11).view.loc (thr d L) ↦[(oChunk L 11).view.set]{fullShare} m (oLoc d)))
          ∗ (((tChunk L 12).view.loc (thr d L) ↦[(tChunk L 12).view.set]{fullShare} m (tLoc d)) ∗ ((oChunk L 12).view.loc (thr d L) ↦[(oChunk L 12).view.set]{fullShare} m (oLoc d)))
          ∗ (((tChunk L 13).view.loc (thr d L) ↦[(tChunk L 13).view.set]{fullShare} m (tLoc d)) ∗ ((oChunk L 13).view.loc (thr d L) ↦[(oChunk L 13).view.set]{fullShare} m (oLoc d)))
          ∗ (((tChunk L 14).view.loc (thr d L) ↦[(tChunk L 14).view.set]{fullShare} m (tLoc d)) ∗ ((oChunk L 14).view.loc (thr d L) ↦[(oChunk L 14).view.set]{fullShare} m (oLoc d)))
          ∗ (((tChunk L 15).view.loc (thr d L) ↦[(tChunk L 15).view.set]{fullShare} m (tLoc d)) ∗ ((oChunk L 15).view.loc (thr d L) ↦[(oChunk L 15).view.set]{fullShare} m (oLoc d)))) := by
  unfold goRes; rw [bigSep_fin16]

theorem tdRes_eq (d : Dev nD) (L : grid0.Coords) :
    tdRes m d L = iprop((((tChunk L 0).view.loc (thr d L) ↦[(tChunk L 0).view.set]{fullShare} m (tLoc d)) ∗ ((oChunk L 0).view.loc (thr d L) ↦[(oChunk L 0).view.set]{fullShare} Gout m d))
              ∗ (((tChunk L 1).view.loc (thr d L) ↦[(tChunk L 1).view.set]{fullShare} m (tLoc d)) ∗ ((oChunk L 1).view.loc (thr d L) ↦[(oChunk L 1).view.set]{fullShare} Gout m d))
              ∗ (((tChunk L 2).view.loc (thr d L) ↦[(tChunk L 2).view.set]{fullShare} m (tLoc d)) ∗ ((oChunk L 2).view.loc (thr d L) ↦[(oChunk L 2).view.set]{fullShare} Gout m d))
              ∗ (((tChunk L 3).view.loc (thr d L) ↦[(tChunk L 3).view.set]{fullShare} m (tLoc d)) ∗ ((oChunk L 3).view.loc (thr d L) ↦[(oChunk L 3).view.set]{fullShare} Gout m d))
              ∗ (((tChunk L 4).view.loc (thr d L) ↦[(tChunk L 4).view.set]{fullShare} m (tLoc d)) ∗ ((oChunk L 4).view.loc (thr d L) ↦[(oChunk L 4).view.set]{fullShare} Gout m d))
              ∗ (((tChunk L 5).view.loc (thr d L) ↦[(tChunk L 5).view.set]{fullShare} m (tLoc d)) ∗ ((oChunk L 5).view.loc (thr d L) ↦[(oChunk L 5).view.set]{fullShare} Gout m d))
              ∗ (((tChunk L 6).view.loc (thr d L) ↦[(tChunk L 6).view.set]{fullShare} m (tLoc d)) ∗ ((oChunk L 6).view.loc (thr d L) ↦[(oChunk L 6).view.set]{fullShare} Gout m d))
              ∗ (((tChunk L 7).view.loc (thr d L) ↦[(tChunk L 7).view.set]{fullShare} m (tLoc d)) ∗ ((oChunk L 7).view.loc (thr d L) ↦[(oChunk L 7).view.set]{fullShare} Gout m d))
              ∗ (((tChunk L 8).view.loc (thr d L) ↦[(tChunk L 8).view.set]{fullShare} m (tLoc d)) ∗ ((oChunk L 8).view.loc (thr d L) ↦[(oChunk L 8).view.set]{fullShare} Gout m d))
              ∗ (((tChunk L 9).view.loc (thr d L) ↦[(tChunk L 9).view.set]{fullShare} m (tLoc d)) ∗ ((oChunk L 9).view.loc (thr d L) ↦[(oChunk L 9).view.set]{fullShare} Gout m d))
              ∗ (((tChunk L 10).view.loc (thr d L) ↦[(tChunk L 10).view.set]{fullShare} m (tLoc d)) ∗ ((oChunk L 10).view.loc (thr d L) ↦[(oChunk L 10).view.set]{fullShare} Gout m d))
              ∗ (((tChunk L 11).view.loc (thr d L) ↦[(tChunk L 11).view.set]{fullShare} m (tLoc d)) ∗ ((oChunk L 11).view.loc (thr d L) ↦[(oChunk L 11).view.set]{fullShare} Gout m d))
              ∗ (((tChunk L 12).view.loc (thr d L) ↦[(tChunk L 12).view.set]{fullShare} m (tLoc d)) ∗ ((oChunk L 12).view.loc (thr d L) ↦[(oChunk L 12).view.set]{fullShare} Gout m d))
              ∗ (((tChunk L 13).view.loc (thr d L) ↦[(tChunk L 13).view.set]{fullShare} m (tLoc d)) ∗ ((oChunk L 13).view.loc (thr d L) ↦[(oChunk L 13).view.set]{fullShare} Gout m d))
              ∗ (((tChunk L 14).view.loc (thr d L) ↦[(tChunk L 14).view.set]{fullShare} m (tLoc d)) ∗ ((oChunk L 14).view.loc (thr d L) ↦[(oChunk L 14).view.set]{fullShare} Gout m d))
              ∗ (((tChunk L 15).view.loc (thr d L) ↦[(tChunk L 15).view.set]{fullShare} m (tLoc d)) ∗ ((oChunk L 15).view.loc (thr d L) ↦[(oChunk L 15).view.set]{fullShare} Gout m d))) := by
  unfold tdRes; rw [bigSep_fin16]

/-- The one call: a SparseCore takes its sixteen tasks' operands and brings back their results; a task takes
    and brings back its own. -/
def P : (K (F := F)).Pay (nD := nD) (Val := Elt F) (Name := ℕ) (U := UU) where
  st := fun q d c => match q with | 0 => bigSep Finset.univ fun i : Fin ((K (F := F)).nSub 0) => goRes m d (coordsV c i)
  dn := fun q d c => match q with | 0 => bigSep Finset.univ fun i : Fin ((K (F := F)).nSub 0) => tdRes m d (coordsV c i)
  go := fun q d c i => match q with | 0 => goRes m d (coordsV c i)
  td := fun q d c i => match q with | 0 => tdRes m d (coordsV c i)
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

/-! ## The launch theorem's obligations -/

variable [FloatOps F]

theorem defs₀_vector (c : Fin τ.nSC) (s : Fin τ.nSub) :
    defs₀ (F := F) (.scVector c s) 0 ()
      = SparseCore.onTile hcore0 hsub0 (fun c s => cc0__copy_rows (coordsV c s)
          tV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) ⟨⟩ c s := rfl

/-- The task, from and to what the handshakes carry. -/
theorem tile_task (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goRes m d L ∗ scopedBufs (thr d L) ∗ scopedSems0 (thr d L) ∗ owes (thr d L) O W)
      ⊢ wp frame (wpE (defs₀ (F := F)) 𝒱₀ (thr d L) none) Set.univ
          (cc0__copy_rows L tV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20)
          fun _ => iprop(tdRes m d L ∗ scopedBufs (thr d L) ∗ scopedSems0 (thr d L)
            ∗ ∃ W', ⌜∀ p ∈ W', p ∈ W ∨ p.2 = none⌝ ∗ owes (thr d L) O W') := by
  rw [goRes_eq, tdRes_eq]
  iintro ⟨Hlv, -, Hgo, Hsb, Hss, HO⟩
  iapply (tile_body m d L hF O W hO)
  isplitl [Hlv]; · iexact Hlv
  isplitl [Hgo]; · iexact Hgo
  isplitl [Hsb]; · iexact Hsb
  isplitl [Hss]; · iexact Hss
  iexact HO

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF O W hO).trans (wp_mono frame _ _ fun _ => obl_post)

/-- A SparseCore's operands are its tasks', its results theirs: nothing to cut or join. -/
theorem vecSplit : (K (F := F)).VecSplit' (P m) 0 := by
  intro d c
  show (bigSep Finset.univ fun i : Fin ((K (F := F)).nSub 0) => goRes m d (coordsV c i))
    ⊢ |={Set.univ}=> iprop((bigSep Finset.univ fun i : Fin ((K (F := F)).nSub 0) => goRes m d (coordsV c i))
      ∗ ((bigSep Finset.univ fun i : Fin ((K (F := F)).nSub 0) => tdRes m d (coordsV c i))
          -∗ bigSep Finset.univ fun i : Fin ((K (F := F)).nSub 0) => tdRes m d (coordsV c i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- A threefold separating conjunction of pairs is the pair of the threefold conjunctions. -/
theorem bigSep_sep3 {I J K' : Type} (s : Finset I) (t : Finset J) (u : Finset K') (A B : I → J → K' → sProp 𝕄) :
    (bigSep s fun a => bigSep t fun b => bigSep u fun c => iprop(A a b c ∗ B a b c))
      = iprop((bigSep s fun a => bigSep t fun b => bigSep u fun c => A a b c)
          ∗ (bigSep s fun a => bigSep t fun b => bigSep u fun c => B a b c)) := by
  have h1 : ∀ a b, (bigSep u fun c => iprop(A a b c ∗ B a b c))
      = iprop((bigSep u fun c => A a b c) ∗ (bigSep u fun c => B a b c)) := fun a b => bigSep_sep u _ _
  have h2 : ∀ a, (bigSep t fun b => bigSep u fun c => iprop(A a b c ∗ B a b c))
      = iprop((bigSep t fun b => bigSep u fun c => A a b c) ∗ (bigSep t fun b => bigSep u fun c => B a b c)) := fun a =>
    (bigSep_congr fun b _ => h1 a b).trans (bigSep_sep t _ _)
  exact (bigSep_congr fun a _ => h2 a).trans (bigSep_sep s _ _)

/-- What the call takes for the two SparseCores: the table and the result whole. -/
theorem st0_eq (d : Dev nD) :
    (bigSep Finset.univ fun c : Fin ((K (F := F)).nCore 0) => (P m).st 0 d c)
      = iprop((tLoc d ↦{fullShare} m (tLoc d)) ∗ (oLoc d ↦{fullShare} m (oLoc d))) := by
  show (bigSep Finset.univ fun c : Fin (grid0.bound 0) => bigSep Finset.univ fun i : Fin (grid0.bound 1) => bigSep Finset.univ fun r : Fin 16 =>
      iprop((tLoc d ↦[tSet (coordsV c i) r]{fullShare} m (tLoc d)) ∗ (oLoc d ↦[oSet (coordsV c i) r]{fullShare} m (oLoc d)))) = _
  refine (bigSep_sep3 _ _ _ (fun c i r => tLoc d ↦[tSet (coordsV c i) r]{fullShare} m (tLoc d))
    (fun c i r => oLoc d ↦[oSet (coordsV c i) r]{fullShare} m (oLoc d))).trans ?_
  rw [← tPts_chunks, ← oPts_chunks]

/-- What it hands back: the table whole as it was, the result whole at the table's entries. -/
theorem dn0_eq (d : Dev nD) :
    (bigSep Finset.univ fun c : Fin ((K (F := F)).nCore 0) => (P m).dn 0 d c)
      = iprop((tLoc d ↦{fullShare} m (tLoc d)) ∗ (oLoc d ↦{fullShare} Gout m d)) := by
  show (bigSep Finset.univ fun c : Fin (grid0.bound 0) => bigSep Finset.univ fun i : Fin (grid0.bound 1) => bigSep Finset.univ fun r : Fin 16 =>
      iprop((tLoc d ↦[tSet (coordsV c i) r]{fullShare} m (tLoc d)) ∗ (oLoc d ↦[oSet (coordsV c i) r]{fullShare} Gout m d))) = _
  refine (bigSep_sep3 _ _ _ (fun c i r => tLoc d ↦[tSet (coordsV c i) r]{fullShare} m (tLoc d))
    (fun c i r => oLoc d ↦[oSet (coordsV c i) r]{fullShare} Gout m d)).trans ?_
  rw [← tPts_chunks, ← oPts_chunks]

/-- What @main leaves the claim: both arguments at their launch contents, the result at the table's entries. -/
abbrev FIN (d : Dev nD) : sProp 𝕄 :=
  iprop((aLoc d ↦{fullShare} m (aLoc d)) ∗ (tLoc d ↦{fullShare} m (tLoc d)) ∗ (oLoc d ↦{fullShare} Gout m d))

/-- @main on device `d`'s TensorCore: the one call, from the table and the result whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Ho⟩, -, -⟩, -⟩
  iapply ((K (F := F)).wp_run (D (F := F)) 𝒱 (EH := EH) (P := P m) κ d 0) $$ [Hst Ha Ht Ho]
  isplitr; · iexact Hctx
  isplitl [Hst]; · iexact Hst
  isplitl [Ht Ho]
  · rw [st0_eq]
    isplitl [Ht]; · iexact Ht
    iexact Ho
  iintro ⟨Hst, Hdn⟩
  ihave Hdn' := (Entails.of_eq (dn0_eq m d)) $$ Hdn
  icases Hdn' with ⟨Ht, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = Gout m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout m c ∧ r.2.mem (aLoc c) = m (aLoc c) ∧ r.2.mem (tLoc c) = m (tLoc c)

/-- Every weakly fair execution of the device's threads terminates, nothing faulting, with the result array at
    the table's entries and both arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.Setup.lean ====
/-
  The kernel's program as the launch theorem reads it, and the pieces of the two HBM arrays the
  vector subcores work on. Thirty-two vector subcores (two SparseCores of sixteen) each move 256 rows
  of the table, sixteen rows at a time: vector subcore s of SparseCore c moves the rows from
  512 s + 256 c, chunk r the sixteen rows from 512 s + 256 c + 16 r. A chunk of the table and the
  chunk of the result it lands in are named here exactly as the program slices them.
-/
import proofs.«213541_g83141976916863_cont_9to1c4b_20_9_alg».proof.Kernel
import Idealize.ShloMosaic.Lib.SparseCore.Launch
import Idealize.ShloMosaic.Lib.StableHlo.Run
import Idealize.ShloMosaic.Lib.Pipeline.Kit
import Idealize.ShloMosaic.Lib.Tactic
import proofs.«213541_g83141976916863_cont_9to1c4b_20_9_alg».proof.Proof.Gen.Kernel
import proofs.«213541_g83141976916863_cont_9to1c4b_20_9_alg».proof.Proof.Gen.Kernel.Skeleton
import proofs.«213541_g83141976916863_cont_9to1c4b_20_9_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays and their chunks -/

abbrev aLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0

/-- The table and the result whole, as a vector subcore names them. -/
abbrev tV : Memref sig .scVector .hbm S8192x1024 .f32 := Memref.whole main_arg1_scv
abbrev oV : Memref sig .scVector .hbm S1x8192x1024 .f32 := Memref.whole main_v0_scv

/-- A vector subcore's grid coordinates: its SparseCore, its number within it. -/
def coordsV (c : Fin (grid0.bound 0)) (s : Fin (grid0.bound 1)) : grid0.Coords :=
  fun | 0 => c | 1 => s | ⟨_ + 2, h⟩ => absurd h (Nat.not_lt.2 (Nat.le_add_left _ _))

/-- Chunk `r` of the table rows of the vector subcore at `L`: sixteen whole rows. -/
abbrev tRect (L : grid0.Coords) (r : Fin 16) : Rect S8192x1024 :=
  Rect.unit (s := S8192x1024) (k0_off1 L (BitVec.ofNat 32 (16 * r.val))) S16x1024.size (k0_off1_inb L r)
/-- The same sixteen rows of the result, under its leading axis of extent one. -/
abbrev oRect (L : grid0.Coords) (r : Fin 16) : Rect S1x8192x1024 :=
  Rect.unit (s := S1x8192x1024) (k0_off2 L (BitVec.ofNat 32 (16 * r.val))) S1x16x1024.size (k0_off2_inb L r)

abbrev tChunk (L : grid0.Coords) (r : Fin 16) : Memref sig .scVector .hbm S16x1024 .f32 :=
  (tV).slice (tRect L r) (fun _ => rfl)
abbrev oChunk (L : grid0.Coords) (r : Fin 16) : Memref sig .scVector .hbm S16x1024 .f32 :=
  ((oV).slice (oRect L r) (fun _ => rfl)).squeeze S16x1024 squeezes_S1x16x1024_S16x1024

/-- The entries of the table chunk, and of the result chunk. -/
abbrev tSet (L : grid0.Coords) (r : Fin 16) : Finset S8192x1024.Idx := (tChunk L r).view.set
abbrev oSet (L : grid0.Coords) (r : Fin 16) : Finset S1x8192x1024.Idx := (oChunk L r).view.set

end Cert.Proof.KB

end
-- ==== Proof.KB.Chunks.lean ====
/-
  The two HBM arrays cut into the sixteen-row chunks the vector subcores move. A chunk is named by the
  SparseCore c, the vector subcore s and the chunk number r; it holds the rows from 512 s + 256 c + 16 r
  up to (not including) sixteen more, every column of them. Here: which entries a chunk holds, that the
  512 chunks of either array are pairwise disjoint and between them hold every entry, so that owning
  the whole array is owning its chunks separately, and that entry y of a result chunk lies over entry y
  of the table chunk of the same name once the result's leading coordinate is dropped.
-/
import proofs.«213541_g83141976916863_cont_9to1c4b_20_9_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A vector subcore's coordinates -/

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- The names of the 512 chunks: SparseCore, vector subcore, chunk number. -/
abbrev ChunkName : Type := Fin (grid0.bound 0) × Fin (grid0.bound 1) × Fin 16

/-! ## The entries of a chunk -/

/-- A table chunk holds the entries whose row is one of its sixteen. -/
theorem mem_tSet (L : grid0.Coords) (r : Fin 16) (i : S8192x1024.Idx) :
    i ∈ tSet L r ↔ 512 * (L 1).val + 256 * (L 0).val + 16 * r.val ≤ (i 0).val
      ∧ (i 0).val < 512 * (L 1).val + 256 * (L 0).val + 16 * r.val + 16 := by
  have hset : tSet L r = (tRect L r).set := View.set_slice_whole main_arg1_scv (tRect L r)
  rw [hset, Rect.mem_set_unit, k0_off1_eq]
  constructor
  · intro h; exact h 0
  · intro h a
    match a with
    | ⟨0, _⟩ => exact h
    | ⟨1, _⟩ =>
      refine ⟨Nat.zero_le _, ?_⟩
      have h1 : (i 1).val < 1024 := (i 1).isLt
      show (i 1).val < 0 + 1024
      omega

/-- A result chunk holds the entries whose row (the middle coordinate) is one of its sixteen. -/
theorem mem_oSet (L : grid0.Coords) (r : Fin 16) (i : S1x8192x1024.Idx) :
    i ∈ oSet L r ↔ 512 * (L 1).val + 256 * (L 0).val + 16 * r.val ≤ (i 1).val
      ∧ (i 1).val < 512 * (L 1).val + 256 * (L 0).val + 16 * r.val + 16 := by
  have hset : oSet L r = (oRect L r).set := by
    show (((View.whole main_v0_scv).slice (oRect L r)).reshape S16x1024
      squeezes_S1x16x1024_S16x1024.numel_eq).set = _
    rw [View.set_reshape, View.set_slice_whole]
  rw [hset, Rect.mem_set_unit, k0_off2_eq]
  constructor
  · intro h; exact h 1
  · intro h a
    match a with
    | ⟨0, _⟩ =>
      refine ⟨Nat.zero_le _, ?_⟩
      have h0 : (i 0).val < 1 := (i 0).isLt
      show (i 0).val < 0 + 1
      omega
    | ⟨1, _⟩ => exact h
    | ⟨2, _⟩ =>
      refine ⟨Nat.zero_le _, ?_⟩
      have h2 : (i 2).val < 1024 := (i 2).isLt
      show (i 2).val < 0 + 1024
      omega

/-! ## The chunks are disjoint and hold everything -/

/-- Two chunks of sixteen rows from 512 s + 256 c + 16 r that share a row have the same name. -/
theorem name_eq_of_common_row {t t' : ChunkName} {x : ℕ}
    (h : 512 * t.2.1.val + 256 * t.1.val + 16 * t.2.2.val ≤ x
      ∧ x < 512 * t.2.1.val + 256 * t.1.val + 16 * t.2.2.val + 16)
    (h' : 512 * t'.2.1.val + 256 * t'.1.val + 16 * t'.2.2.val ≤ x
      ∧ x < 512 * t'.2.1.val + 256 * t'.1.val + 16 * t'.2.2.val + 16) : t = t' := by
  obtain ⟨c, s, r⟩ := t
  obtain ⟨c', s', r'⟩ := t'
  have hc : c.val < 2 := c.isLt
  have hc' : c'.val < 2 := c'.isLt
  have hr : r.val < 16 := r.isLt
  have hr' : r'.val < 16 := r'.isLt
  simp only at h h'
  have e1 : c = c' := Fin.ext (by omega)
  have e2 : s = s' := Fin.ext (by omega)
  have e3 : r = r' := Fin.ext (by omega)
  rw [e1, e2, e3]

/-- Row x below 8192 lies in the chunk named by its digits: x / 512, then (x / 256) mod 2, then (x / 16) mod 16. -/
theorem exists_name_of_row {x : ℕ} (hx : x < 8192) : ∃ t : ChunkName,
    512 * t.2.1.val + 256 * t.1.val + 16 * t.2.2.val ≤ x
      ∧ x < 512 * t.2.1.val + 256 * t.1.val + 16 * t.2.2.val + 16 := by
  refine ⟨(⟨x / 256 % 2, ?_⟩, ⟨x / 512, ?_⟩, ⟨x / 16 % 16, ?_⟩), ?_⟩
  · show x / 256 % 2 < 2; omega
  · show x / 512 < 16; omega
  · omega
  · show 512 * (x / 512) + 256 * (x / 256 % 2) + 16 * (x / 16 % 16) ≤ x
      ∧ x < 512 * (x / 512) + 256 * (x / 256 % 2) + 16 * (x / 16 % 16) + 16
    omega

theorem tSet_disjoint (t t' : ChunkName) (h : t ≠ t') :
    Disjoint (tSet (coordsV t.1 t.2.1) t.2.2) (tSet (coordsV t'.1 t'.2.1) t'.2.2) := by
  rw [Finset.disjoint_left]
  intro i hi hi'
  rw [mem_tSet, coordsV_zero, coordsV_one] at hi hi'
  exact h (name_eq_of_common_row hi hi')

theorem oSet_disjoint (t t' : ChunkName) (h : t ≠ t') :
    Disjoint (oSet (coordsV t.1 t.2.1) t.2.2) (oSet (coordsV t'.1 t'.2.1) t'.2.2) := by
  rw [Finset.disjoint_left]
  intro i hi hi'
  rw [mem_oSet, coordsV_zero, coordsV_one] at hi hi'
  exact h (name_eq_of_common_row hi hi')

theorem tSet_cover {inst : DecidableEq S8192x1024.Idx} :
    @Finset.biUnion _ _ inst (Finset.univ : Finset ChunkName) (fun t => tSet (coordsV t.1 t.2.1) t.2.2)
      = Finset.univ := by
  ext i
  simp only [Finset.mem_biUnion, Finset.mem_univ, true_and, iff_true]
  obtain ⟨t, ht⟩ := exists_name_of_row (x := (i 0).val) (i 0).isLt
  exact ⟨t, by rw [mem_tSet, coordsV_zero, coordsV_one]; exact ht⟩

theorem oSet_cover {inst : DecidableEq S1x8192x1024.Idx} :
    @Finset.biUnion _ _ inst (Finset.univ : Finset ChunkName) (fun t => oSet (coordsV t.1 t.2.1) t.2.2)
      = Finset.univ := by
  ext i
  simp only [Finset.mem_biUnion, Finset.mem_univ, true_and, iff_true]
  obtain ⟨t, ht⟩ := exists_name_of_row (x := (i 1).val) (i 1).isLt
  exact ⟨t, by rw [mem_oSet, coordsV_zero, coordsV_one]; exact ht⟩

/-! ## Owning an array is owning its chunks -/

/-- The table whole is its 512 chunks. -/
theorem tPts_chunks (d : Dev nD) (f : Buf (Elt F) (tLoc d)) :
    (tLoc d ↦{fullShare} f : sProp 𝕄)
      = bigSep Finset.univ fun c : Fin (grid0.bound 0) => bigSep Finset.univ fun s : Fin (grid0.bound 1) =>
          bigSep Finset.univ fun r : Fin 16 => tLoc d ↦[tSet (coordsV c s) r]{fullShare} f := by
  have h : (tLoc d ↦[(Finset.univ : Finset ChunkName).biUnion fun t => tSet (coordsV t.1 t.2.1) t.2.2]{fullShare} f : sProp 𝕄)
      = bigSep Finset.univ fun t : ChunkName => tLoc d ↦[tSet (coordsV t.1 t.2.1) t.2.2]{fullShare} f :=
    pointsTo_biUnion Finset.univ _ fun t _ t' _ hne => tSet_disjoint t t' hne
  rw [tSet_cover] at h
  refine h.trans ?_
  rw [bigSep_univ_prod]
  congr 1; funext c
  rw [bigSep_univ_prod]

/-- The result whole is its 512 chunks. -/
theorem oPts_chunks (d : Dev nD) (f : Buf (Elt F) (oLoc d)) :
    (oLoc d ↦{fullShare} f : sProp 𝕄)
      = bigSep Finset.univ fun c : Fin (grid0.bound 0) => bigSep Finset.univ fun s : Fin (grid0.bound 1) =>
          bigSep Finset.univ fun r : Fin 16 => oLoc d ↦[oSet (coordsV c s) r]{fullShare} f := by
  have h : (oLoc d ↦[(Finset.univ : Finset ChunkName).biUnion fun t => oSet (coordsV t.1 t.2.1) t.2.2]{fullShare} f : sProp 𝕄)
      = bigSep Finset.univ fun t : ChunkName => oLoc d ↦[oSet (coordsV t.1 t.2.1) t.2.2]{fullShare} f :=
    pointsTo_biUnion Finset.univ _ fun t _ t' _ hne => oSet_disjoint t t' hne
  rw [oSet_cover] at h
  refine h.trans ?_
  rw [bigSep_univ_prod]
  congr 1; funext c
  rw [bigSep_univ_prod]

/-! ## A result chunk lies over the table chunk of the same name -/

/-- Entry y of a result chunk copies entry y of the table chunk of the same number. -/
theorem rc_emb (L : grid0.Coords) (r : Fin 16) (y : S16x1024.Idx) :
    Cert.Spec.rc ((oChunk L r).view.emb y) = (tChunk L r).view.emb y := by
  -- dropping the leading axis of extent one: entry y of [16,1024] is entry (0, y) of [1,16,1024]
  have e := Shape.reshapeEquiv_cons_one (n := 2) (d := ![16, 1024]) squeezes_S1x16x1024_S16x1024.numel_eq y
  -- a unit-stride rectangle places an entry at its offset plus the entry's coordinate, on every axis
  have ho : ∀ a, ((oChunk L r).view.emb y a).val
      = k0_off2 L (BitVec.ofNat 32 (16 * r.val)) a
        + 1 * ((Shape.reshapeEquiv (s := ⟨2 + 1, Matrix.vecCons 1 ![16, 1024]⟩) (s' := ⟨2, ![16, 1024]⟩)
            squeezes_S1x16x1024_S16x1024.numel_eq y) a).val := fun a => rfl
  have ht : ∀ a, ((tChunk L r).view.emb y a).val
      = k0_off1 L (BitVec.ofNat 32 (16 * r.val)) a + 1 * (y a).val := fun a => rfl
  funext a
  apply Fin.ext
  match a with
  | ⟨0, _⟩ =>
    show ((oChunk L r).view.emb y 1).val = ((tChunk L r).view.emb y 0).val
    rw [ho, ht, e, k0_off1_eq, k0_off2_eq]
    rfl
  | ⟨1, _⟩ =>
    show ((oChunk L r).view.emb y 2).val = ((tChunk L r).view.emb y 1).val
    rw [ho, ht, e, k0_off1_eq, k0_off2_eq]
    rfl

end Cert.Proof.KB

end
-- ==== Proof.KB.Body.lean ====
/-
  One vector subcore's task. It is handed its sixteen chunks of the table and the sixteen chunks of the
  result they land in, and owns seven buffers of sixteen rows and fourteen transfer semaphores. Chunk r
  goes table -> buffer r mod 7 -> result, each leg one transfer waited for on a semaphore of its own
  (in-leg r on semaphore r mod 7 of the first seven, out-leg r on semaphore r mod 7 of the last seven).
  A buffer is refilled only after the out-leg that read it has been waited for, and every transfer is
  waited for before the task ends, so no transfer ever meets a store into its source or destination and
  at most one transfer is pending on a semaphore at a time. The task ends with every result chunk holding
  the table chunk of the same number, and the table chunks as they were.
-/
import proofs.«213541_g83141976916863_cont_9to1c4b_20_9_alg».proof.Proof.KB.Setup
import proofs.«213541_g83141976916863_cont_9to1c4b_20_9_alg».proof.Proof.KB.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Finite separating conjunctions written out -/

omit F in
theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  simp (disch := decide) only [SparseCore.bigSep_insert', bigSep_singleton]

omit F in
theorem bigSep_fin14 {M : Type} [URA M] (Φ : Fin 14 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [show (Finset.univ : Finset (Fin 14)) = {0, 1, 2, 3, 4, 5, 6, 7, 8, 9, 10, 11, 12, 13} by decide]
  simp (disch := decide) only [SparseCore.bigSep_insert', bigSep_singleton]

omit F in
theorem bigSep_fin16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  simp (disch := decide) only [SparseCore.bigSep_insert', bigSep_singleton]

/-! ## A vector subcore's own storage, piece by piece -/

section Own

variable (d : Dev nD) (c : Fin τ.nSC) (i : Fin τ.nSub)

/-- The seven buffers of a vector subcore, by number. -/
def bufOf : Fin 7 → Ref sig .scVector
  | 0 => cc0_scratch0 | 1 => cc0_scratch1 | 2 => cc0_scratch2 | 3 => cc0_scratch3
  | 4 => cc0_scratch4 | 5 => cc0_scratch5 | 6 => cc0_scratch6

theorem bufOf_injective : Function.Injective bufOf := by unfold Function.Injective; decide

/-- They are among the vector subcore's own buffers. -/
def bufSet : Finset (DevRef τ sig) :=
  Finset.univ.map ⟨fun k => (Proc.scVector c i).devRef (bufOf k), (Proc.devRef_injective _).comp bufOf_injective⟩

theorem bufSet_sub : bufSet c i ⊆ ownRefs (τ := τ) (sig := sig) (.scVector c i) := by
  intro b hb
  obtain ⟨k, -, rfl⟩ := Finset.mem_map.mp hb
  fin_cases k <;> exact SparseCore.Cfg.mem_ownRefs_of_owner (p := Proc.scVector c i) rfl

/-- The vector subcore's own buffers: the seven, each at some contents, and the rest. -/
theorem ownBufs_V :
    (ownBufs (V d c i) : sProp 𝕄)
      = iprop(((∃ f, (Memref.whole cc0_scratch0 : Memref sig .scVector .vmem S16x1024 .f32).view.loc (V d c i) ↦{fullShare} f) ∗ (∃ f, (Memref.whole cc0_scratch1 : Memref sig .scVector .vmem S16x1024 .f32).view.loc (V d c i) ↦{fullShare} f)
          ∗ (∃ f, (Memref.whole cc0_scratch2 : Memref sig .scVector .vmem S16x1024 .f32).view.loc (V d c i) ↦{fullShare} f) ∗ (∃ f, (Memref.whole cc0_scratch3 : Memref sig .scVector .vmem S16x1024 .f32).view.loc (V d c i) ↦{fullShare} f)
          ∗ (∃ f, (Memref.whole cc0_scratch4 : Memref sig .scVector .vmem S16x1024 .f32).view.loc (V d c i) ↦{fullShare} f) ∗ (∃ f, (Memref.whole cc0_scratch5 : Memref sig .scVector .vmem S16x1024 .f32).view.loc (V d c i) ↦{fullShare} f)
          ∗ (∃ f, (Memref.whole cc0_scratch6 : Memref sig .scVector .vmem S16x1024 .f32).view.loc (V d c i) ↦{fullShare} f))
          ∗ bigSep (ownRefs (τ := τ) (.scVector c i) \ bufSet c i) fun b => iprop(∃ f, ((d, b) : Loc nD τ sig) ↦{fullShare} f)) := by
  unfold SparseCore.Cfg.ownBufs
  rw [SparseCore.bigSep_sdiff_split' (bufSet_sub c i)]
  unfold bufSet
  rw [bigSep_map, bigSep_fin7]
  rfl

/-- The fourteen transfer semaphores of a vector subcore are among its own cells. -/
def semSet : Finset (GSem nD τ sig) :=
  Finset.univ.map ⟨fun k : Fin 14 => ((V d c i, SemLoc.dma (k : DmaSem sig)) : GSem nD τ sig), fun a b h => by
    have := (Prod.mk.inj h).2; exact SemLoc.dma.inj this⟩

theorem dma_scoped : ∀ k : Fin 14, (SemLoc.dma (k : DmaSem sig) : SemLoc sig).isScoped .scVector = true := by decide

theorem semSet_sub : semSet d c i ⊆ ownCells (V d c i) := by
  intro g hg
  obtain ⟨k, -, rfl⟩ := Finset.mem_map.mp hg
  exact mem_ownCells.mpr ⟨rfl, dma_scoped k⟩

/-- The vector subcore's own cells at zero: the fourteen, and the rest. -/
theorem ownSems0_V :
    (ownSems0 (V d c i) : sProp 𝕄)
      = iprop((semVal (V d c i, SemLoc.dma cc0_scratch7.sem) 0 ∗ semVal (V d c i, SemLoc.dma cc0_scratch8.sem) 0
          ∗ semVal (V d c i, SemLoc.dma cc0_scratch9.sem) 0 ∗ semVal (V d c i, SemLoc.dma cc0_scratch10.sem) 0
          ∗ semVal (V d c i, SemLoc.dma cc0_scratch11.sem) 0 ∗ semVal (V d c i, SemLoc.dma cc0_scratch12.sem) 0
          ∗ semVal (V d c i, SemLoc.dma cc0_scratch13.sem) 0 ∗ semVal (V d c i, SemLoc.dma cc0_scratch14.sem) 0
          ∗ semVal (V d c i, SemLoc.dma cc0_scratch15.sem) 0 ∗ semVal (V d c i, SemLoc.dma cc0_scratch16.sem) 0
          ∗ semVal (V d c i, SemLoc.dma cc0_scratch17.sem) 0 ∗ semVal (V d c i, SemLoc.dma cc0_scratch18.sem) 0
          ∗ semVal (V d c i, SemLoc.dma cc0_scratch19.sem) 0 ∗ semVal (V d c i, SemLoc.dma cc0_scratch20.sem) 0)
          ∗ bigSep (ownCells (V d c i) \ semSet d c i) fun g => semVal g 0) := by
  unfold SparseCore.Cfg.ownSems0
  rw [SparseCore.bigSep_sdiff_split' (semSet_sub d c i)]
  unfold semSet
  rw [bigSep_map, bigSep_fin14]
  rfl

end Own

/-! ## The task -/

section Tile

variable [FloatOps F]
variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
/-- The vector subcore at the grid coordinates `L`. -/
abbrev thr (d : Dev nD) (L : grid0.Coords) : Thread nD τ := V d (cV L) (jV L)

/-- The result as the task leaves it: entry (0, r, k) the table's entry (r, k). -/
def Gout (d : Dev nD) : Buf (Elt F) (oLoc d) := Cert.Spec.G (m (tLoc d))

omit [FloatOps F] in
/-- A result chunk written whole with what its table chunk holds has, at each of its entries, the table's
    entry at that row and column: the chunk's entry y lies over the table chunk's entry y. -/
theorem chunk_value (r : Fin 16) (g : Buf (Elt F) (oLoc d)) (pay : S16x1024.Idx → Elt F .f32)
    (hpay : pay = (tChunk L r).view.read (Elt F) (m (tLoc d))) :
    ∀ j ∈ (oChunk L r).view.set,
      (oChunk L r).view.writes (Elt F) g [⟨Rect.whole S16x1024, pay⟩] j = Gout m d j := by
  subst hpay
  intro j hj
  obtain ⟨y, -, rfl⟩ := Finset.mem_map.mp hj
  -- a read through either chunk's view is the array's entry under the chunk's entry
  have hr : ∀ f : Buf (Elt F) (oLoc d), (oChunk L r).view.read (Elt F) f y = f ((oChunk L r).view.emb y) := fun _ => rfl
  have ht : (tChunk L r).view.read (Elt F) (m (tLoc d)) y = m (tLoc d) ((tChunk L r).view.emb y) := rfl
  have h := View.read_writes_cons_emb (oChunk L r).view g (Rect.whole S16x1024) ((tChunk L r).view.read (Elt F) (m (tLoc d))) [] y
  rw [Rect.emb_whole_apply, hr, ht] at h
  rw [h]
  show _ = m (tLoc d) (Cert.Spec.rc ((oChunk L r).view.emb y))
  rw [rc_emb]

omit [FloatOps F] in
/-- Recording one more wait at the kernels' index keeps every recorded wait old or at that index. -/
theorem waits_ok {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

set_option maxHeartbeats 1000000 in
/-- THE TASK: from the sixteen table chunks and the sixteen result chunks (at whatever the result held), the
    vector subcore's own storage and what it owes, the kernel runs to its end with every result chunk at the
    table's entries, the table chunks unchanged, its storage handed back, and only waits at the kernels' index
    recorded. -/
theorem tile_body (hF : (K (F := F)).Facts) (O : CellTallies nD τ sig (HIx 1)) (W : Waits sig (HIx 1)) (hO : ∀ g, O g none = 0) :
    iprop(levAts (K (F := F)).L (K (F := F)).lev
        ∗ ((((tChunk L 0).view.loc (thr d L) ↦[(tChunk L 0).view.set]{fullShare} m (tLoc d)) ∗ ((oChunk L 0).view.loc (thr d L) ↦[(oChunk L 0).view.set]{fullShare} m (oLoc d)))
          ∗ (((tChunk L 1).view.loc (thr d L) ↦[(tChunk L 1).view.set]{fullShare} m (tLoc d)) ∗ ((oChunk L 1).view.loc (thr d L) ↦[(oChunk L 1).view.set]{fullShare} m (oLoc d)))
          ∗ (((tChunk L 2).view.loc (thr d L) ↦[(tChunk L 2).view.set]{fullShare} m (tLoc d)) ∗ ((oChunk L 2).view.loc (thr d L) ↦[(oChunk L 2).view.set]{fullShare} m (oLoc d)))
          ∗ (((tChunk L 3).view.loc (thr d L) ↦[(tChunk L 3).view.set]{fullShare} m (tLoc d)) ∗ ((oChunk L 3).view.loc (thr d L) ↦[(oChunk L 3).view.set]{fullShare} m (oLoc d)))
          ∗ (((tChunk L 4).view.loc (thr d L) ↦[(tChunk L 4).view.set]{fullShare} m (tLoc d)) ∗ ((oChunk L 4).view.loc (thr d L) ↦[(oChunk L 4).view.set]{fullShare} m (oLoc d)))
          ∗ (((tChunk L 5).view.loc (thr d L) ↦[(tChunk L 5).view.set]{fullShare} m (tLoc d)) ∗ ((oChunk L 5).view.loc (thr d L) ↦[(oChunk L 5).view.set]{fullShare} m (oLoc d)))
          ∗ (((tChunk L 6).view.loc (thr d L) ↦[(tChunk L 6).view.set]{fullShare} m (tLoc d)) ∗ ((oChunk L 6).view.loc (thr d L) ↦[(oChunk L 6).view.set]{fullShare} m (oLoc d)))
          ∗ (((tChunk L 7).view.loc (thr d L) ↦[(tChunk L 7).view.set]{fullShare} m (tLoc d)) ∗ ((oChunk L 7).view.loc (thr d L) ↦[(oChunk L 7).view.set]{fullShare} m (oLoc d)))
          ∗ (((tChunk L 8).view.loc (thr d L) ↦[(tChunk L 8).view.set]{fullShare} m (tLoc d)) ∗ ((oChunk L 8).view.loc (thr d L) ↦[(oChunk L 8).view.set]{fullShare} m (oLoc d)))
          ∗ (((tChunk L 9).view.loc (thr d L) ↦[(tChunk L 9).view.set]{fullShare} m (tLoc d)) ∗ ((oChunk L 9).view.loc (thr d L) ↦[(oChunk L 9).view.set]{fullShare} m (oLoc d)))
          ∗ (((tChunk L 10).view.loc (thr d L) ↦[(tChunk L 10).view.set]{fullShare} m (tLoc d)) ∗ ((oChunk L 10).view.loc (thr d L) ↦[(oChunk L 10).view.set]{fullShare} m (oLoc d)))
          ∗ (((tChunk L 11).view.loc (thr d L) ↦[(tChunk L 11).view.set]{fullShare} m (tLoc d)) ∗ ((oChunk L 11).view.loc (thr d L) ↦[(oChunk L 11).view.set]{fullShare} m (oLoc d)))
          ∗ (((tChunk L 12).view.loc (thr d L) ↦[(tChunk L 12).view.set]{fullShare} m (tLoc d)) ∗ ((oChunk L 12).view.loc (thr d L) ↦[(oChunk L 12).view.set]{fullShare} m (oLoc d)))
          ∗ (((tChunk L 13).view.loc (thr d L) ↦[(tChunk L 13).view.set]{fullShare} m (tLoc d)) ∗ ((oChunk L 13).view.loc (thr d L) ↦[(oChunk L 13).view.set]{fullShare} m (oLoc d)))
          ∗ (((tChunk L 14).view.loc (thr d L) ↦[(tChunk L 14).view.set]{fullShare} m (tLoc d)) ∗ ((oChunk L 14).view.loc (thr d L) ↦[(oChunk L 14).view.set]{fullShare} m (oLoc d)))
          ∗ (((tChunk L 15).view.loc (thr d L) ↦[(tChunk L 15).view.set]{fullShare} m (tLoc d)) ∗ ((oChunk L 15).view.loc (thr d L) ↦[(oChunk L 15).view.set]{fullShare} m (oLoc d))))
        ∗ scopedBufs (thr d L) ∗ scopedSems0 (thr d L) ∗ owes (thr d L) O W)
      ⊢ wp frame (wpE (defs₀ (F := F)) 𝒱₀ (thr d L) none) Set.univ
          (cc0__copy_rows L tV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20)
          fun _ => (iprop(((((tChunk L 0).view.loc (thr d L) ↦[(tChunk L 0).view.set]{fullShare} m (tLoc d)) ∗ ((oChunk L 0).view.loc (thr d L) ↦[(oChunk L 0).view.set]{fullShare} Gout m d))
              ∗ (((tChunk L 1).view.loc (thr d L) ↦[(tChunk L 1).view.set]{fullShare} m (tLoc d)) ∗ ((oChunk L 1).view.loc (thr d L) ↦[(oChunk L 1).view.set]{fullShare} Gout m d))
              ∗ (((tChunk L 2).view.loc (thr d L) ↦[(tChunk L 2).view.set]{fullShare} m (tLoc d)) ∗ ((oChunk L 2).view.loc (thr d L) ↦[(oChunk L 2).view.set]{fullShare} Gout m d))
              ∗ (((tChunk L 3).view.loc (thr d L) ↦[(tChunk L 3).view.set]{fullShare} m (tLoc d)) ∗ ((oChunk L 3).view.loc (thr d L) ↦[(oChunk L 3).view.set]{fullShare} Gout m d))
              ∗ (((tChunk L 4).view.loc (thr d L) ↦[(tChunk L 4).view.set]{fullShare} m (tLoc d)) ∗ ((oChunk L 4).view.loc (thr d L) ↦[(oChunk L 4).view.set]{fullShare} Gout m d))
              ∗ (((tChunk L 5).view.loc (thr d L) ↦[(tChunk L 5).view.set]{fullShare} m (tLoc d)) ∗ ((oChunk L 5).view.loc (thr d L) ↦[(oChunk L 5).view.set]{fullShare} Gout m d))
              ∗ (((tChunk L 6).view.loc (thr d L) ↦[(tChunk L 6).view.set]{fullShare} m (tLoc d)) ∗ ((oChunk L 6).view.loc (thr d L) ↦[(oChunk L 6).view.set]{fullShare} Gout m d))
              ∗ (((tChunk L 7).view.loc (thr d L) ↦[(tChunk L 7).view.set]{fullShare} m (tLoc d)) ∗ ((oChunk L 7).view.loc (thr d L) ↦[(oChunk L 7).view.set]{fullShare} Gout m d))
              ∗ (((tChunk L 8).view.loc (thr d L) ↦[(tChunk L 8).view.set]{fullShare} m (tLoc d)) ∗ ((oChunk L 8).view.loc (thr d L) ↦[(oChunk L 8).view.set]{fullShare} Gout m d))
              ∗ (((tChunk L 9).view.loc (thr d L) ↦[(tChunk L 9).view.set]{fullShare} m (tLoc d)) ∗ ((oChunk L 9).view.loc (thr d L) ↦[(oChunk L 9).view.set]{fullShare} Gout m d))
              ∗ (((tChunk L 10).view.loc (thr d L) ↦[(tChunk L 10).view.set]{fullShare} m (tLoc d)) ∗ ((oChunk L 10).view.loc (thr d L) ↦[(oChunk L 10).view.set]{fullShare} Gout m d))
              ∗ (((tChunk L 11).view.loc (thr d L) ↦[(tChunk L 11).view.set]{fullShare} m (tLoc d)) ∗ ((oChunk L 11).view.loc (thr d L) ↦[(oChunk L 11).view.set]{fullShare} Gout m d))
              ∗ (((tChunk L 12).view.loc (thr d L) ↦[(tChunk L 12).view.set]{fullShare} m (tLoc d)) ∗ ((oChunk L 12).view.loc (thr d L) ↦[(oChunk L 12).view.set]{fullShare} Gout m d))
              ∗ (((tChunk L 13).view.loc (thr d L) ↦[(tChunk L 13).view.set]{fullShare} m (tLoc d)) ∗ ((oChunk L 13).view.loc (thr d L) ↦[(oChunk L 13).view.set]{fullShare} Gout m d))
              ∗ (((tChunk L 14).view.loc (thr d L) ↦[(tChunk L 14).view.set]{fullShare} m (tLoc d)) ∗ ((oChunk L 14).view.loc (thr d L) ↦[(oChunk L 14).view.set]{fullShare} Gout m d))
              ∗ (((tChunk L 15).view.loc (thr d L) ↦[(tChunk L 15).view.set]{fullShare} m (tLoc d)) ∗ ((oChunk L 15).view.loc (thr d L) ↦[(oChunk L 15).view.set]{fullShare} Gout m d)))
            ∗ scopedBufs (thr d L) ∗ scopedSems0 (thr d L)
            ∗ ∃ W', ⌜∀ p ∈ W', p ∈ W ∨ p.2 = none⌝ ∗ owes (thr d L) O W') : sProp 𝕄) := by
  rw [cc0__copy_rows_eq_skeleton]; unfold cc0__copy_rows_skel
  rw [(K (F := F)).scopedBufs_V hF d (cV L) (jV L), SparseCore.Cfg.scopedSems0_V (Val := Elt F) d (cV L) (jV L), ownSems0_V, ownBufs_V]
  iintro ⟨#Hlv, ⟨⟨Ht0, Ho0⟩, ⟨Ht1, Ho1⟩, ⟨Ht2, Ho2⟩, ⟨Ht3, Ho3⟩, ⟨Ht4, Ho4⟩, ⟨Ht5, Ho5⟩, ⟨Ht6, Ho6⟩, ⟨Ht7, Ho7⟩, ⟨Ht8, Ho8⟩, ⟨Ht9, Ho9⟩, ⟨Ht10, Ho10⟩, ⟨Ht11, Ho11⟩, ⟨Ht12, Ho12⟩, ⟨Ht13, Ho13⟩, ⟨Ht14, Ho14⟩, ⟨Ht15, Ho15⟩⟩,
    ⟨⟨⟨%f0, Hb0⟩, ⟨%f1, Hb1⟩, ⟨%f2, Hb2⟩, ⟨%f3, Hb3⟩, ⟨%f4, Hb4⟩, ⟨%f5, Hb5⟩, ⟨%f6, Hb6⟩⟩, Hbrest⟩,
    ⟨⟨Hs7, Hs8, Hs9, Hs10, Hs11, Hs12, Hs13, Hs14, Hs15, Hs16, Hs17, Hs18, Hs19, Hs20⟩, Hsrest⟩, HO⟩
  ihave Hmw := ((K (F := F)).mayWaits_none (thr := thr d L) hO) $$ Hlv
  sl_exec
  -- what each out-leg carried is what the in-leg of the same chunk read off the table
  have hp0 : tile_body.sl.dma0_6 m d L f0 = (tChunk L 0).view.read (Elt F) (m (tLoc d)) := by
    unfold tile_body.sl.dma0_6; rw [ReadAs.apply_same, View.read_write_univ]
    unfold tile_body.sl.dma0; rw [ReadAs.apply_same]; rfl
  have hp1 : tile_body.sl.dma0_8 m d L f1 = (tChunk L 1).view.read (Elt F) (m (tLoc d)) := by
    unfold tile_body.sl.dma0_8; rw [ReadAs.apply_same, View.read_write_univ]
    unfold tile_body.sl.dma0_1; rw [ReadAs.apply_same]; rfl
  have hp2 : tile_body.sl.dma0_10 m d L f2 = (tChunk L 2).view.read (Elt F) (m (tLoc d)) := by
    unfold tile_body.sl.dma0_10; rw [ReadAs.apply_same, View.read_write_univ]
    unfold tile_body.sl.dma0_2; rw [ReadAs.apply_same]; rfl
  have hp3 : tile_body.sl.dma0_12 m d L f3 = (tChunk L 3).view.read (Elt F) (m (tLoc d)) := by
    unfold tile_body.sl.dma0_12; rw [ReadAs.apply_same, View.read_write_univ]
    unfold tile_body.sl.dma0_3; rw [ReadAs.apply_same]; rfl
  have hp4 : tile_body.sl.dma0_14 m d L f4 = (tChunk L 4).view.read (Elt F) (m (tLoc d)) := by
    unfold tile_body.sl.dma0_14; rw [ReadAs.apply_same, View.read_write_univ]
    unfold tile_body.sl.dma0_4; rw [ReadAs.apply_same]; rfl
  have hp5 : tile_body.sl.dma0_16 m d L f5 = (tChunk L 5).view.read (Elt F) (m (tLoc d)) := by
    unfold tile_body.sl.dma0_16; rw [ReadAs.apply_same, View.read_write_univ]
    unfold tile_body.sl.dma0_5; rw [ReadAs.apply_same]; rfl
  have hp6 : tile_body.sl.dma0_18 m d L f6 = (tChunk L 6).view.read (Elt F) (m (tLoc d)) := by
    unfold tile_body.sl.dma0_18; rw [ReadAs.apply_same, View.read_write_univ]
    unfold tile_body.sl.dma0_7; rw [ReadAs.apply_same]; rfl
  have hp7 : tile_body.sl.dma0_20 m d L f0 = (tChunk L 7).view.read (Elt F) (m (tLoc d)) := by
    unfold tile_body.sl.dma0_20; rw [ReadAs.apply_same, View.read_write_univ]
    unfold tile_body.sl.dma0_9; rw [ReadAs.apply_same]; rfl
  have hp8 : tile_body.sl.dma0_22 m d L f1 = (tChunk L 8).view.read (Elt F) (m (tLoc d)) := by
    unfold tile_body.sl.dma0_22; rw [ReadAs.apply_same, View.read_write_univ]
    unfold tile_body.sl.dma0_11; rw [ReadAs.apply_same]; rfl
  have hp9 : tile_body.sl.dma0_24 m d L f2 = (tChunk L 9).view.read (Elt F) (m (tLoc d)) := by
    unfold tile_body.sl.dma0_24; rw [ReadAs.apply_same, View.read_write_univ]
    unfold tile_body.sl.dma0_13; rw [ReadAs.apply_same]; rfl
  have hp10 : tile_body.sl.dma0_26 m d L f3 = (tChunk L 10).view.read (Elt F) (m (tLoc d)) := by
    unfold tile_body.sl.dma0_26; rw [ReadAs.apply_same, View.read_write_univ]
    unfold tile_body.sl.dma0_15; rw [ReadAs.apply_same]; rfl
  have hp11 : tile_body.sl.dma0_27 m d L f4 = (tChunk L 11).view.read (Elt F) (m (tLoc d)) := by
    unfold tile_body.sl.dma0_27; rw [ReadAs.apply_same, View.read_write_univ]
    unfold tile_body.sl.dma0_17; rw [ReadAs.apply_same]; rfl
  have hp12 : tile_body.sl.dma0_28 m d L f5 = (tChunk L 12).view.read (Elt F) (m (tLoc d)) := by
    unfold tile_body.sl.dma0_28; rw [ReadAs.apply_same, View.read_write_univ]
    unfold tile_body.sl.dma0_19; rw [ReadAs.apply_same]; rfl
  have hp13 : tile_body.sl.dma0_29 m d L f6 = (tChunk L 13).view.read (Elt F) (m (tLoc d)) := by
    unfold tile_body.sl.dma0_29; rw [ReadAs.apply_same, View.read_write_univ]
    unfold tile_body.sl.dma0_21; rw [ReadAs.apply_same]; rfl
  have hp14 : tile_body.sl.dma0_30 m d L f0 = (tChunk L 14).view.read (Elt F) (m (tLoc d)) := by
    unfold tile_body.sl.dma0_30; rw [ReadAs.apply_same, View.read_write_univ]
    unfold tile_body.sl.dma0_23; rw [ReadAs.apply_same]; rfl
  have hp15 : tile_body.sl.dma0_31 m d L f1 = (tChunk L 15).view.read (Elt F) (m (tLoc d)) := by
    unfold tile_body.sl.dma0_31; rw [ReadAs.apply_same, View.read_write_univ]
    unfold tile_body.sl.dma0_25; rw [ReadAs.apply_same]; rfl
  ihave Ho0 := (Entails.of_eq (pointsTo_congr (chunk_value m d L 0 _ _ hp0))) $$ Ho0
  ihave Ho1 := (Entails.of_eq (pointsTo_congr (chunk_value m d L 1 _ _ hp1))) $$ Ho1
  ihave Ho2 := (Entails.of_eq (pointsTo_congr (chunk_value m d L 2 _ _ hp2))) $$ Ho2
  ihave Ho3 := (Entails.of_eq (pointsTo_congr (chunk_value m d L 3 _ _ hp3))) $$ Ho3
  ihave Ho4 := (Entails.of_eq (pointsTo_congr (chunk_value m d L 4 _ _ hp4))) $$ Ho4
  ihave Ho5 := (Entails.of_eq (pointsTo_congr (chunk_value m d L 5 _ _ hp5))) $$ Ho5
  ihave Ho6 := (Entails.of_eq (pointsTo_congr (chunk_value m d L 6 _ _ hp6))) $$ Ho6
  ihave Ho7 := (Entails.of_eq (pointsTo_congr (chunk_value m d L 7 _ _ hp7))) $$ Ho7
  ihave Ho8 := (Entails.of_eq (pointsTo_congr (chunk_value m d L 8 _ _ hp8))) $$ Ho8
  ihave Ho9 := (Entails.of_eq (pointsTo_congr (chunk_value m d L 9 _ _ hp9))) $$ Ho9
  ihave Ho10 := (Entails.of_eq (pointsTo_congr (chunk_value m d L 10 _ _ hp10))) $$ Ho10
  ihave Ho11 := (Entails.of_eq (pointsTo_congr (chunk_value m d L 11 _ _ hp11))) $$ Ho11
  ihave Ho12 := (Entails.of_eq (pointsTo_congr (chunk_value m d L 12 _ _ hp12))) $$ Ho12
  ihave Ho13 := (Entails.of_eq (pointsTo_congr (chunk_value m d L 13 _ _ hp13))) $$ Ho13
  ihave Ho14 := (Entails.of_eq (pointsTo_congr (chunk_value m d L 14 _ _ hp14))) $$ Ho14
  ihave Ho15 := (Entails.of_eq (pointsTo_congr (chunk_value m d L 15 _ _ hp15))) $$ Ho15
  sl_step
  isplitl [Ht0 Ho0 Ht1 Ho1 Ht2 Ho2 Ht3 Ho3 Ht4 Ho4 Ht5 Ho5 Ht6 Ho6 Ht7 Ho7 Ht8 Ho8 Ht9 Ho9 Ht10 Ho10 Ht11 Ho11 Ht12 Ho12 Ht13 Ho13 Ht14 Ho14 Ht15 Ho15]
  · skip
    isplitl [Ht0 Ho0]
    · isplitl [Ht0]; · iexact Ht0
      iexact Ho0
    isplitl [Ht1 Ho1]
    · isplitl [Ht1]; · iexact Ht1
      iexact Ho1
    isplitl [Ht2 Ho2]
    · isplitl [Ht2]; · iexact Ht2
      iexact Ho2
    isplitl [Ht3 Ho3]
    · isplitl [Ht3]; · iexact Ht3
      iexact Ho3
    isplitl [Ht4 Ho4]
    · isplitl [Ht4]; · iexact Ht4
      iexact Ho4
    isplitl [Ht5 Ho5]
    · isplitl [Ht5]; · iexact Ht5
      iexact Ho5
    isplitl [Ht6 Ho6]
    · isplitl [Ht6]; · iexact Ht6
      iexact Ho6
    isplitl [Ht7 Ho7]
    · isplitl [Ht7]; · iexact Ht7
      iexact Ho7
    isplitl [Ht8 Ho8]
    · isplitl [Ht8]; · iexact Ht8
      iexact Ho8
    isplitl [Ht9 Ho9]
    · isplitl [Ht9]; · iexact Ht9
      iexact Ho9
    isplitl [Ht10 Ho10]
    · isplitl [Ht10]; · iexact Ht10
      iexact Ho10
    isplitl [Ht11 Ho11]
    · isplitl [Ht11]; · iexact Ht11
      iexact Ho11
    isplitl [Ht12 Ho12]
    · isplitl [Ht12]; · iexact Ht12
      iexact Ho12
    isplitl [Ht13 Ho13]
    · isplitl [Ht13]; · iexact Ht13
      iexact Ho13
    isplitl [Ht14 Ho14]
    · isplitl [Ht14]; · iexact Ht14
      iexact Ho14
    isplitl [Ht15]; · iexact Ht15
    iexact Ho15
  isplitl [Hb0 Hb1 Hb2 Hb3 Hb4 Hb5 Hb6 Hbrest]
  · isplitl [Hb0 Hb1 Hb2 Hb3 Hb4 Hb5 Hb6]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      iexists _; iexact Hb6
    iexact Hbrest
  isplitl [Hs7 Hs8 Hs9 Hs10 Hs11 Hs12 Hs13 Hs14 Hs15 Hs16 Hs17 Hs18 Hs19 Hs20 Hsrest]
  · isplitl [Hs7 Hs8 Hs9 Hs10 Hs11 Hs12 Hs13 Hs14 Hs15 Hs16 Hs17 Hs18 Hs19 Hs20]
    · isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      isplitl [Hs18]; · iexact Hs18
      isplitl [Hs19]; · iexact Hs19
      iexact Hs20
    iexact Hsrest
  iexists _; isplitr
  swap
  · iexact HO
  · ipureintro
    repeat (first | exact fun p hp => .inl hp | refine waits_ok _ ?_)

end Tile

end Cert.Proof.KB

end
-- ==== Proof.KB.Launch.lean ====
/-
  The whole program's run. The TensorCore hands the two SparseCores the table and the result cut into
  their 512 chunks, each SparseCore hands each of its sixteen vector subcores the thirty-two chunks of its
  task, every task ends with its result chunks at the table's entries, and the chunks come back the same
  way: the result whole then holds, at every entry (0, r, k), the table's entry (r, k), and the two
  argument arrays are as they were. No thread signals another beyond the launch's own handshakes, so
  the kernel owes the launch nothing and brings no ghost state of its own.
-/
import proofs.«213541_g83141976916863_cont_9to1c4b_20_9_alg».proof.Proof.KB.Body

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the handshakes carry -/

/-- A task's operands: its sixteen table chunks, and its sixteen result chunks at what the result held. -/
def goRes (d : Dev nD) (L : grid0.Coords) : sProp 𝕄 :=
  bigSep Finset.univ fun r : Fin 16 =>
    iprop((tLoc d ↦[tSet L r]{fullShare} m (tLoc d)) ∗ (oLoc d ↦[oSet L r]{fullShare} m (oLoc d)))

/-- A task's results: the table chunks as they were, the result chunks at the table's entries. -/
def tdRes (d : Dev nD) (L : grid0.Coords) : sProp 𝕄 :=
  bigSep Finset.univ fun r : Fin 16 =>
    iprop((tLoc d ↦[tSet L r]{fullShare} m (tLoc d)) ∗ (oLoc d ↦[oSet L r]{fullShare} Gout m d))

theorem goRes_eq (d : Dev nD) (L : grid0.Coords) :
    goRes m d L = iprop((((tChunk L 0).view.loc (thr d L) ↦[(tChunk L 0).view.set]{fullShare} m (tLoc d)) ∗ ((oChunk L 0).view.loc (thr d L) ↦[(oChunk L 0).view.set]{fullShare} m (oLoc d)))
          ∗ (((tChunk L 1).view.loc (thr d L) ↦[(tChunk L 1).view.set]{fullShare} m (tLoc d)) ∗ ((oChunk L 1).view.loc (thr d L) ↦[(oChunk L 1).view.set]{fullShare} m (oLoc d)))
          ∗ (((tChunk L 2).view.loc (thr d L) ↦[(tChunk L 2).view.set]{fullShare} m (tLoc d)) ∗ ((oChunk L 2).view.loc (thr d L) ↦[(oChunk L 2).view.set]{fullShare} m (oLoc d)))
          ∗ (((tChunk L 3).view.loc (thr d L) ↦[(tChunk L 3).view.set]{fullShare} m (tLoc d)) ∗ ((oChunk L 3).view.loc (thr d L) ↦[(oChunk L 3).view.set]{fullShare} m (oLoc d)))
          ∗ (((tChunk L 4).view.loc (thr d L) ↦[(tChunk L 4).view.set]{fullShare} m (tLoc d)) ∗ ((oChunk L 4).view.loc (thr d L) ↦[(oChunk L 4).view.set]{fullShare} m (oLoc d)))
          ∗ (((tChunk L 5).view.loc (thr d L) ↦[(tChunk L 5).view.set]{fullShare} m (tLoc d)) ∗ ((oChunk L 5).view.loc (thr d L) ↦[(oChunk L 5).view.set]{fullShare} m (oLoc d)))
          ∗ (((tChunk L 6).view.loc (thr d L) ↦[(tChunk L 6).view.set]{fullShare} m (tLoc d)) ∗ ((oChunk L 6).view.loc (thr d L) ↦[(oChunk L 6).view.set]{fullShare} m (oLoc d)))
          ∗ (((tChunk L 7).view.loc (thr d L) ↦[(tChunk L 7).view.set]{fullShare} m (tLoc d)) ∗ ((oChunk L 7).view.loc (thr d L) ↦[(oChunk L 7).view.set]{fullShare} m (oLoc d)))
          ∗ (((tChunk L 8).view.loc (thr d L) ↦[(tChunk L 8).view.set]{fullShare} m (tLoc d)) ∗ ((oChunk L 8).view.loc (thr d L) ↦[(oChunk L 8).view.set]{fullShare} m (oLoc d)))
          ∗ (((tChunk L 9).view.loc (thr d L) ↦[(tChunk L 9).view.set]{fullShare} m (tLoc d)) ∗ ((oChunk L 9).view.loc (thr d L) ↦[(oChunk L 9).view.set]{fullShare} m (oLoc d)))
          ∗ (((tChunk L 10).view.loc (thr d L) ↦[(tChunk L 10).view.set]{fullShare} m (tLoc d)) ∗ ((oChunk L 10).view.loc (thr d L) ↦[(oChunk L 10).view.set]{fullShare} m (oLoc d)))
          ∗ (((tChunk L 11).view.loc (thr d L) ↦[(tChunk L 11).view.set]{fullShare} m (tLoc d)) ∗ ((oChunk L 11).view.loc (thr d L) ↦[(oChunk L 11).view.set]{fullShare} m (oLoc d)))
          ∗ (((tChunk L 12).view.loc (thr d L) ↦[(tChunk L 12).view.set]{fullShare} m (tLoc d)) ∗ ((oChunk L 12).view.loc (thr d L) ↦[(oChunk L 12).view.set]{fullShare} m (oLoc d)))
          ∗ (((tChunk L 13).view.loc (thr d L) ↦[(tChunk L 13).view.set]{fullShare} m (tLoc d)) ∗ ((oChunk L 13).view.loc (thr d L) ↦[(oChunk L 13).view.set]{fullShare} m (oLoc d)))
          ∗ (((tChunk L 14).view.loc (thr d L) ↦[(tChunk L 14).view.set]{fullShare} m (tLoc d)) ∗ ((oChunk L 14).view.loc (thr d L) ↦[(oChunk L 14).view.set]{fullShare} m (oLoc d)))
          ∗ (((tChunk L 15).view.loc (thr d L) ↦[(tChunk L 15).view.set]{fullShare} m (tLoc d)) ∗ ((oChunk L 15).view.loc (thr d L) ↦[(oChunk L 15).view.set]{fullShare} m (oLoc d)))) := by
  unfold goRes; rw [bigSep_fin16]

theorem tdRes_eq (d : Dev nD) (L : grid0.Coords) :
    tdRes m d L = iprop((((tChunk L 0).view.loc (thr d L) ↦[(tChunk L 0).view.set]{fullShare} m (tLoc d)) ∗ ((oChunk L 0).view.loc (thr d L) ↦[(oChunk L 0).view.set]{fullShare} Gout m d))
              ∗ (((tChunk L 1).view.loc (thr d L) ↦[(tChunk L 1).view.set]{fullShare} m (tLoc d)) ∗ ((oChunk L 1).view.loc (thr d L) ↦[(oChunk L 1).view.set]{fullShare} Gout m d))
              ∗ (((tChunk L 2).view.loc (thr d L) ↦[(tChunk L 2).view.set]{fullShare} m (tLoc d)) ∗ ((oChunk L 2).view.loc (thr d L) ↦[(oChunk L 2).view.set]{fullShare} Gout m d))
              ∗ (((tChunk L 3).view.loc (thr d L) ↦[(tChunk L 3).view.set]{fullShare} m (tLoc d)) ∗ ((oChunk L 3).view.loc (thr d L) ↦[(oChunk L 3).view.set]{fullShare} Gout m d))
              ∗ (((tChunk L 4).view.loc (thr d L) ↦[(tChunk L 4).view.set]{fullShare} m (tLoc d)) ∗ ((oChunk L 4).view.loc (thr d L) ↦[(oChunk L 4).view.set]{fullShare} Gout m d))
              ∗ (((tChunk L 5).view.loc (thr d L) ↦[(tChunk L 5).view.set]{fullShare} m (tLoc d)) ∗ ((oChunk L 5).view.loc (thr d L) ↦[(oChunk L 5).view.set]{fullShare} Gout m d))
              ∗ (((tChunk L 6).view.loc (thr d L) ↦[(tChunk L 6).view.set]{fullShare} m (tLoc d)) ∗ ((oChunk L 6).view.loc (thr d L) ↦[(oChunk L 6).view.set]{fullShare} Gout m d))
              ∗ (((tChunk L 7).view.loc (thr d L) ↦[(tChunk L 7).view.set]{fullShare} m (tLoc d)) ∗ ((oChunk L 7).view.loc (thr d L) ↦[(oChunk L 7).view.set]{fullShare} Gout m d))
              ∗ (((tChunk L 8).view.loc (thr d L) ↦[(tChunk L 8).view.set]{fullShare} m (tLoc d)) ∗ ((oChunk L 8).view.loc (thr d L) ↦[(oChunk L 8).view.set]{fullShare} Gout m d))
              ∗ (((tChunk L 9).view.loc (thr d L) ↦[(tChunk L 9).view.set]{fullShare} m (tLoc d)) ∗ ((oChunk L 9).view.loc (thr d L) ↦[(oChunk L 9).view.set]{fullShare} Gout m d))
              ∗ (((tChunk L 10).view.loc (thr d L) ↦[(tChunk L 10).view.set]{fullShare} m (tLoc d)) ∗ ((oChunk L 10).view.loc (thr d L) ↦[(oChunk L 10).view.set]{fullShare} Gout m d))
              ∗ (((tChunk L 11).view.loc (thr d L) ↦[(tChunk L 11).view.set]{fullShare} m (tLoc d)) ∗ ((oChunk L 11).view.loc (thr d L) ↦[(oChunk L 11).view.set]{fullShare} Gout m d))
              ∗ (((tChunk L 12).view.loc (thr d L) ↦[(tChunk L 12).view.set]{fullShare} m (tLoc d)) ∗ ((oChunk L 12).view.loc (thr d L) ↦[(oChunk L 12).view.set]{fullShare} Gout m d))
              ∗ (((tChunk L 13).view.loc (thr d L) ↦[(tChunk L 13).view.set]{fullShare} m (tLoc d)) ∗ ((oChunk L 13).view.loc (thr d L) ↦[(oChunk L 13).view.set]{fullShare} Gout m d))
              ∗ (((tChunk L 14).view.loc (thr d L) ↦[(tChunk L 14).view.set]{fullShare} m (tLoc d)) ∗ ((oChunk L 14).view.loc (thr d L) ↦[(oChunk L 14).view.set]{fullShare} Gout m d))
              ∗ (((tChunk L 15).view.loc (thr d L) ↦[(tChunk L 15).view.set]{fullShare} m (tLoc d)) ∗ ((oChunk L 15).view.loc (thr d L) ↦[(oChunk L 15).view.set]{fullShare} Gout m d))) := by
  unfold tdRes; rw [bigSep_fin16]

/-- The one call: a SparseCore takes its sixteen tasks' operands and brings back their results; a task takes
    and brings back its own. -/
def P : (K (F := F)).Pay (nD := nD) (Val := Elt F) (Name := ℕ) (U := UU) where
  st := fun q d c => match q with | 0 => bigSep Finset.univ fun i : Fin ((K (F := F)).nSub 0) => goRes m d (coordsV c i)
  dn := fun q d c => match q with | 0 => bigSep Finset.univ fun i : Fin ((K (F := F)).nSub 0) => tdRes m d (coordsV c i)
  go := fun q d c i => match q with | 0 => goRes m d (coordsV c i)
  td := fun q d c i => match q with | 0 => tdRes m d (coordsV c i)
  x := fun _ _ => iprop(emp)

instance P_storable : (P (F := F) m).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

/-! ## The launch theorem's obligations -/

variable [FloatOps F]

theorem defs₀_vector (c : Fin τ.nSC) (s : Fin τ.nSub) :
    defs₀ (F := F) (.scVector c s) 0 ()
      = SparseCore.onTile hcore0 hsub0 (fun c s => cc0__copy_rows (coordsV c s)
          tV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20) ⟨⟩ c s := rfl

/-- The task, from and to what the handshakes carry. -/
theorem tile_task (d : Dev nD) (L : grid0.Coords) (hF : (K (F := F)).Facts) (O : CellTallies nD τ sig (HIx 1)) (W : Waits sig (HIx 1)) (hO : ∀ g, O g none = 0) :
    iprop(levAts (K (F := F)).L (K (F := F)).lev ∗ emp ∗ goRes m d L ∗ scopedBufs (thr d L) ∗ scopedSems0 (thr d L) ∗ owes (thr d L) O W)
      ⊢ wp frame (wpE (defs₀ (F := F)) 𝒱₀ (thr d L) none) Set.univ
          (cc0__copy_rows L tV (Memref.isWhole_whole _) oV (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12 cc0_scratch13 cc0_scratch14 cc0_scratch15 cc0_scratch16 cc0_scratch17 cc0_scratch18 cc0_scratch19 cc0_scratch20)
          fun _ => iprop(tdRes m d L ∗ scopedBufs (thr d L) ∗ scopedSems0 (thr d L)
            ∗ ∃ W', ⌜∀ p ∈ W', p ∈ W ∨ p.2 = none⌝ ∗ owes (thr d L) O W') := by
  rw [goRes_eq, tdRes_eq]
  iintro ⟨Hlv, -, Hgo, Hsb, Hss, HO⟩
  iapply (tile_body m d L hF O W hO)
  isplitl [Hlv]; · iexact Hlv
  isplitl [Hgo]; · iexact Hgo
  isplitl [Hsb]; · iexact Hsb
  isplitl [Hss]; · iexact Hss
  iexact HO

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_task m d (coordsV ⟨_, hc.1⟩ ⟨_, hc.2⟩) hF O W hO).trans (wp_mono frame _ _ fun _ => obl_post)

/-- A SparseCore's operands are its tasks', its results theirs: nothing to cut or join. -/
theorem vecSplit : (K (F := F)).VecSplit' (P m) 0 := by
  intro d c
  show (bigSep Finset.univ fun i : Fin ((K (F := F)).nSub 0) => goRes m d (coordsV c i))
    ⊢ |={Set.univ}=> iprop((bigSep Finset.univ fun i : Fin ((K (F := F)).nSub 0) => goRes m d (coordsV c i))
      ∗ ((bigSep Finset.univ fun i : Fin ((K (F := F)).nSub 0) => tdRes m d (coordsV c i))
          -∗ bigSep Finset.univ fun i : Fin ((K (F := F)).nSub 0) => tdRes m d (coordsV c i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (tLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- A threefold separating conjunction of pairs is the pair of the threefold conjunctions. -/
theorem bigSep_sep3 {I J K' : Type} (s : Finset I) (t : Finset J) (u : Finset K') (A B : I → J → K' → sProp 𝕄) :
    (bigSep s fun a => bigSep t fun b => bigSep u fun c => iprop(A a b c ∗ B a b c))
      = iprop((bigSep s fun a => bigSep t fun b => bigSep u fun c => A a b c)
          ∗ (bigSep s fun a => bigSep t fun b => bigSep u fun c => B a b c)) := by
  have h1 : ∀ a b, (bigSep u fun c => iprop(A a b c ∗ B a b c))
      = iprop((bigSep u fun c => A a b c) ∗ (bigSep u fun c => B a b c)) := fun a b => bigSep_sep u _ _
  have h2 : ∀ a, (bigSep t fun b => bigSep u fun c => iprop(A a b c ∗ B a b c))
      = iprop((bigSep t fun b => bigSep u fun c => A a b c) ∗ (bigSep t fun b => bigSep u fun c => B a b c)) := fun a =>
    (bigSep_congr fun b _ => h1 a b).trans (bigSep_sep t _ _)
  exact (bigSep_congr fun a _ => h2 a).trans (bigSep_sep s _ _)

/-- What the call takes for the two SparseCores: the table and the result whole. -/
theorem st0_eq (d : Dev nD) :
    (bigSep Finset.univ fun c : Fin ((K (F := F)).nCore 0) => (P m).st 0 d c)
      = iprop((tLoc d ↦{fullShare} m (tLoc d)) ∗ (oLoc d ↦{fullShare} m (oLoc d))) := by
  show (bigSep Finset.univ fun c : Fin (grid0.bound 0) => bigSep Finset.univ fun i : Fin (grid0.bound 1) => bigSep Finset.univ fun r : Fin 16 =>
      iprop((tLoc d ↦[tSet (coordsV c i) r]{fullShare} m (tLoc d)) ∗ (oLoc d ↦[oSet (coordsV c i) r]{fullShare} m (oLoc d)))) = _
  refine (bigSep_sep3 _ _ _ (fun c i r => tLoc d ↦[tSet (coordsV c i) r]{fullShare} m (tLoc d))
    (fun c i r => oLoc d ↦[oSet (coordsV c i) r]{fullShare} m (oLoc d))).trans ?_
  rw [← tPts_chunks, ← oPts_chunks]

/-- What it hands back: the table whole as it was, the result whole at the table's entries. -/
theorem dn0_eq (d : Dev nD) :
    (bigSep Finset.univ fun c : Fin ((K (F := F)).nCore 0) => (P m).dn 0 d c)
      = iprop((tLoc d ↦{fullShare} m (tLoc d)) ∗ (oLoc d ↦{fullShare} Gout m d)) := by
  show (bigSep Finset.univ fun c : Fin (grid0.bound 0) => bigSep Finset.univ fun i : Fin (grid0.bound 1) => bigSep Finset.univ fun r : Fin 16 =>
      iprop((tLoc d ↦[tSet (coordsV c i) r]{fullShare} m (tLoc d)) ∗ (oLoc d ↦[oSet (coordsV c i) r]{fullShare} Gout m d))) = _
  refine (bigSep_sep3 _ _ _ (fun c i r => tLoc d ↦[tSet (coordsV c i) r]{fullShare} m (tLoc d))
    (fun c i r => oLoc d ↦[oSet (coordsV c i) r]{fullShare} Gout m d)).trans ?_
  rw [← tPts_chunks, ← oPts_chunks]

/-- What @main leaves the claim: both arguments at their launch contents, the result at the table's entries. -/
abbrev FIN (d : Dev nD) : sProp 𝕄 :=
  iprop((aLoc d ↦{fullShare} m (aLoc d)) ∗ (tLoc d ↦{fullShare} m (tLoc d)) ∗ (oLoc d ↦{fullShare} Gout m d))

/-- @main on device `d`'s TensorCore: the one call, from the table and the result whole. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Ht, Ho⟩, -, -⟩, -⟩
  iapply ((K (F := F)).wp_run (D (F := F)) 𝒱 (EH := EH) (P := P m) κ d 0) $$ [Hst Ha Ht Ho]
  isplitr; · iexact Hctx
  isplitl [Hst]; · iexact Hst
  isplitl [Ht Ho]
  · rw [st0_eq]
    isplitl [Ht]; · iexact Ht
    iexact Ho
  iintro ⟨Hst, Hdn⟩
  ihave Hdn' := (Entails.of_eq (dn0_eq m d)) $$ Hdn
  icases Hdn' with ⟨Ht, Ho⟩
  imodintro
  isplitl [Hst]; · iexact Hst
  isplitl [Ha]; · iexact Ha
  isplitl [Ht]; · iexact Ht
  iexact Ho

def fq (d : Dev nD) (s' : Phys nD τ sig (Elt F)) : Prop :=
  s'.mem.mem (oLoc d) = Gout m d ∧ s'.mem.mem (aLoc d) = m (aLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := Gout m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = Gout m c ∧ r.2.mem (aLoc c) = m (aLoc c) ∧ r.2.mem (tLoc c) = m (tLoc c)

/-- Every weakly fair execution of the device's threads terminates, nothing faulting, with the result array at
    the table's entries and both arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.LibRowGather.lean ====
/-
  A gather of whole rows: from an array of N rows and n columns, the rows named by E start indices
  (dimension numbers: offset axis [1], collapsed slice axis [0], start index map [0], index vector on axis 1,
  slice sizes [1, n]). Entry (e, c) of the result is the operand's entry (r, c), where r is start index e read
  as a signed integer and clamped into [0, N - 1], as a gather clamps every start index.
-/
import Idealize.ShloMosaic.PureOps.Ideal
import Idealize.ShloMosaic.Lib.ValueIdx

noncomputable section

namespace Cert.Lib.RowGather

open Idealize.ShloMosaic Idealize.ShloMosaic.ValueIdx

variable {α : Type}

/-- The dimension numbers of a gather of whole rows, for an operand `[N, n]`, start indices `[E, 1]` and a
    result `[E, n]`. -/
abbrev rowDims (N E n : Nat)
    (wf : GatherDims.WF ⟨2, ![N, n]⟩ ⟨2, ![E, 1]⟩ ⟨2, ![E, n]⟩ [1] [0] [] [0] [] 1 ![1, n]) :
    GatherDims ⟨2, ![N, n]⟩ ⟨2, ![E, 1]⟩ ⟨2, ![E, n]⟩ :=
  ⟨[1], [0], [], [], [0], 1, ![1, n], wf⟩

section
variable {N E n w : Nat}
  (wf : GatherDims.WF ⟨2, ![N, n]⟩ ⟨2, ![E, 1]⟩ ⟨2, ![E, n]⟩ [1] [0] [] [0] [] 1 ![1, n])
  (idx : IVec ⟨2, ![E, 1]⟩ w) (e : Fin E) (c : Fin n)

/-- On the row axis the operand coordinate is the clamped start index: no batching and no offset part. -/
theorem coord0 :
    (rowDims N E n wf).start (ix2 e c) idx 0 + (rowDims N E n wf).batchCoord (ix2 e c) 0
      + (rowDims N E n wf).offCoord (ix2 e c) 0 = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N E n wf).startIndexMap from List.mem_singleton.mpr rfl)]
  have hsi : (rowDims N E n wf).siIdx (ix2 e c) ⟨List.idxOf (0 : Fin 2) (rowDims N E n wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the column axis the operand coordinate is the result's column: no start and no batching part. -/
theorem coord1 :
    (rowDims N E n wf).start (ix2 e c) idx 1 + (rowDims N E n wf).batchCoord (ix2 e c) 1
      + (rowDims N E n wf).offCoord (ix2 e c) 1 = c.val := by
  rw [GatherDims.batchCoord_eq_zero _ _ _ List.not_mem_nil]
  have h1 : (1 : Fin 2) ∉ ([0] : List (Fin 2)) := by decide
  have hs : (rowDims N E n wf).start (ix2 e c) idx 1 = 0 := by
    unfold GatherDims.start
    rw [dif_neg (show (1 : Fin 2) ∉ (rowDims N E n wf).startIndexMap from h1)]
  rw [hs]
  simp only [Nat.add_zero, Nat.zero_add]
  have hk : (1 : Fin 2) ∈ (rowDims N E n wf).sKept :=
    (GatherDims.mem_sKept _ _).mpr ⟨h1, List.not_mem_nil⟩
  unfold GatherDims.offCoord
  rw [dif_pos hk]
  rfl

end

/-- THE ROW GATHER READ AT `(e, c)`: the operand at row `idx[e, 0]` (read signed, clamped into `[0, N − 1]`),
    column `c`. -/
theorem rowGather_apply {N E n w : Nat} (hN : 0 < N)
    (wf : GatherDims.WF ⟨2, ![N, n]⟩ ⟨2, ![E, 1]⟩ ⟨2, ![E, n]⟩ [1] [0] [] [0] [] 1 ![1, n])
    (x : (⟨2, ![N, n]⟩ : Shape).Idx → α) (idx : IVec ⟨2, ![E, 1]⟩ w) (e : Fin E) (c : Fin n) :
    Host.gather (⟨[1], [0], [], [], [0], 1, ![1, n], wf⟩ : GatherDims ⟨2, ![N, n]⟩ ⟨2, ![E, 1]⟩ ⟨2, ![E, n]⟩) x idx (ix2 e c)
      = x (ix2 ⟨min (idx (ix2 e (0 : Fin 1))).toInt.toNat (N - 1), by omega⟩ c) := by
  show Host.gather (rowDims N E n wf) x idx (ix2 e c) = _
  unfold Host.gather
  congr 1
  funext a
  refine Fin.ext ?_
  match a with
  | ⟨0, _⟩ => exact coord0 wf idx e c
  | ⟨1, _⟩ => exact coord1 wf idx e c

end Cert.Lib.RowGather

end
-- ==== Proof.RefRun.lean ====
/-
  The reference program's run, and the value it computes.

  The reference is a straight line of array operations: the row numbers 0 … 8191 as 32-bit integers; a lookup of
  those rows in the table (a row number below zero is first moved up by 8192; each is then checked to lie between
  0 and 8191, the rows are gathered whole, and a row whose number failed the check is replaced by a fill value);
  and a leading axis of extent one added to the result. Part one lists the operations in order, shows that the
  program is that list run in order, and reads the result array off the list as one composed term of the table.
  Part two evaluates that term at an entry (0, r, k): every row number r is already between 0 and 8191, so it is
  not moved, passes the check, and the gather reads row r; the entry is the table's entry (r, k).
-/
import proofs.«213541_g83141976916863_cont_9to1c4b_20_9_alg».proof.Proof.Gen.ReferenceIdeal
import proofs.«213541_g83141976916863_cont_9to1c4b_20_9_alg».proof.Proof.Spec
import proofs.«213541_g83141976916863_cont_9to1c4b_20_9_alg».proof.Proof.LibRowGather
import Idealize.ShloMosaic.Lib.StableHlo.Run
import Idealize.ShloMosaic.Lib.ValueIdx
import Idealize.ShloMosaic.Lib.Pipeline.Value
import Idealize.ShloMosaic.Lib.WordArith
import Idealize.ShloMosaic.Lib.Affine
import Idealize.ShloMosaic.PureOps.Reduce
import Idealize.ShloMosaic.PureOps.Ideal

noncomputable section

namespace Cert.Proof.RefRun

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## Part one: the run -/

/-- The program's 26 operations in order, the two called functions' operations in the place of their calls:
    the row numbers; the lookup's comparison with zero, the shift by 8192 and the choice between the two; the
    indices as a column; the range check (at least 0, at most 8191, both, folded along the unit axis); the gather
    of whole rows; the check spread along the rows, the fill value, the choice; and the leading unit axis. -/
abbrev ops : List (HloOp τ sig (Elt F)) :=
  [ nullary main_v0 (iotaInDim S8192 32 0),
    TRef.nullary main_call0.c (constantI S_ 32 0#32),
    TRef.unary main_call0.c main_call0.v0 (broadcastInDim S8192 ![] bcast_S_S8192),
    TRef.binary (.of main_v0) main_call0.v0 main_call0.v1 (cmpi .slt),
    TRef.nullary main_call0.c_0 (constantI S_ 32 8192#32),
    TRef.unary main_call0.c_0 main_call0.v2 (broadcastInDim S8192 ![] bcast_S_S8192),
    TRef.binary (.of main_v0) main_call0.v2 main_call0.v3 addi,
    TRef.ternary main_call0.v1 main_call0.v3 (.of main_v0) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2 : (⟨S8192x1024, .f32⟩ : BufTy).Contents (Elt F) → (⟨S1x8192x1024, .f32⟩ : BufTy).Contents (Elt F)) ]

set_option maxRecDepth 1024 in
/-- The program is that list run in order: the called functions unfolded at their calls, both sides are one chain
    of steps once the sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub ..⟩

/-- From any memory with zero counters every weakly fair execution of the program terminates, and every buffer
    ends at the fold of the operations' results over what the memory held. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ### The result as one term of the table -/

/-- The gather's start indices, a column of 8192 words: the row numbers 0 … 8191, each moved up by 8192 if it
    reads below zero as a signed integer. -/
def startIdx : IVec S8192x1 32 :=
  broadcastInDim S8192x1 ![0] bcast_S8192_S8192x1_0
    (select (cmpi .slt (iotaInDim S8192 32 0) (broadcastInDim S8192 ![] bcast_S_S8192 (constantI S_ 32 0#32)))
      (addi (iotaInDim S8192 32 0) (broadcastInDim S8192 ![] bcast_S_S8192 (constantI S_ 32 8192#32)))
      (iotaInDim S8192 32 0))

/-- The range check, one bit per start index: at least 0 and at most 8191 as signed integers, the two bits
    combined, and the combination folded along the column's unit axis from the bit 1. -/
def inRange : IVec S8192 1 :=
  Host.reduce IntOp.andi
    (andi (cmpi .sge startIdx (broadcastInDim S8192x1 ![] bcast_S_S8192x1 (constantI S_ 32 0#32)))
      (cmpi .sle startIdx (broadcastInDim S8192x1 ![0, 1] bcast_S1x1_S8192x1_0_1
        (broadcastInDim S1x1 ![1] bcast_S1_S1x1_1 (constantI S1 32 8191#32)))))
    (constantI S_ 1 1#1) reducesTo_S8192x1_S8192_d1 h_S_

/-- The result array as a function of the table: the rows gathered at the start indices, a row whose index
    failed the range check replaced by the fill value, under a leading axis of extent one. -/
def out (t : (⟨S8192x1024, .f32⟩ : BufTy).Contents (Elt F)) : (⟨S1x8192x1024, .f32⟩ : BufTy).Contents (Elt F) :=
  broadcastInDim S1x8192x1024 ![1, 2] bcast_S8192x1024_S1x8192x1024_1_2
    (select (broadcastInDim S8192x1024 ![0] bcast_S8192_S8192x1024_0 inRange)
      (Host.gather gather_S8192x1024_S8192x1_S8192x1024_1_0_n_n_0_1_11024 t startIdx)
      (broadcastInDim S8192x1024 ![] bcast_S_S8192x1024 (constant S_ .f32 0x7FC00000#32)))

attribute [local irreducible] Host.reduce Host.gather in
/-- The fold of the operations' results at the result buffer is that term of the table's contents: each
    operation's result is read at its own buffer, every other buffer keeps what it held. -/
theorem out_eq (V : Valuation τ sig (Elt F)) :
    after ops V (main_v2 : DevRef τ sig) = out (V (main_arg1 : DevRef τ sig)) := by
  after_results
  rfl

/-- No operation writes the first argument's buffer. -/
theorem arg0_eq (V : Valuation τ sig (Elt F)) :
    after ops V (main_arg0 : DevRef τ sig) = V (main_arg0 : DevRef τ sig) := by
  after_results

/-- No operation writes the table's buffer. -/
theorem arg1_eq (V : Valuation τ sig (Elt F)) :
    after ops V (main_arg1 : DevRef τ sig) = V (main_arg1 : DevRef τ sig) := by
  after_results

/-! ## Part two: the value -/

/-- A number below 8192, as a 32-bit word, reads signed as itself. -/
theorem toInt_row (e : Nat) (he : e < 8192) : (BitVec.ofNat 32 e).toInt = (e : Int) :=
  WordArith.toInt_ofNat_small e (by omega)

/-- Start index number e is the word of e: the row number e is not below zero, so it is not moved. -/
theorem startIdx_apply (i : S8192x1.Idx) : startIdx i = BitVec.ofNat 32 (i 0).val := by
  have hi := idx2_lt0 i
  unfold startIdx
  refine (broadcastInDim_apply ![0] bcast_S8192_S8192x1_0 _ i (ix1 (n := 8192) (i 0))
    (fun a => match a with | ⟨0, _⟩ => rfl)).trans ?_
  rw [select_apply]
  have hlt : cmpi .slt (iotaInDim S8192 32 0) (broadcastInDim S8192 ![] bcast_S_S8192 (constantI S_ 32 0#32))
      (ix1 (n := 8192) (i 0)) = 0#1 := by
    apply eq_zero_of_ne_one
    show ¬ IntOp.cmpi .slt (BitVec.ofNat 32 (i 0).val) (BitVec.ofNat 32 0) = 1#1
    rw [IntOp.cmpi_slt, toInt_row _ hi, toInt_row 0 (by omega)]
    omega
  rw [hlt, select_zero]
  rfl

/-- Every start index passes the range check: it is the word of a number between 0 and 8191. -/
theorem mask_apply (i : S8192x1.Idx) :
    andi (cmpi .sge startIdx (broadcastInDim S8192x1 ![] bcast_S_S8192x1 (constantI S_ 32 0#32)))
      (cmpi .sle startIdx (broadcastInDim S8192x1 ![0, 1] bcast_S1x1_S8192x1_0_1
        (broadcastInDim S1x1 ![1] bcast_S1_S1x1_1 (constantI S1 32 8191#32)))) i = 1#1 := by
  have hi := idx2_lt0 i
  show IntOp.andi (IntOp.cmpi .sge (startIdx i) (BitVec.ofNat 32 0)) (IntOp.cmpi .sle (startIdx i) (BitVec.ofNat 32 8191)) = 1#1
  rw [startIdx_apply, IntOp.andi_eq_one, IntOp.cmpi_sge, IntOp.cmpi_sle, toInt_row _ hi, toInt_row 0 (by omega),
    toInt_row 8191 (by omega)]
  omega

/-- A left fold by "and" from the bit 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by "and" from the bit 1 of an array whose bits are all 1 is 1 at every index of the result. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hinit : init (Shape.Idx.first hu) = 1#1) : Host.reduce IntOp.andi x init h hu j = 1#1 := by
  rw [Host.reduce_eq_foldl, hinit]
  exact foldl_andi_ones x hx _

/-- Every row number passes the range check. -/
theorem inRange_apply (e : S8192.Idx) : inRange e = 1#1 := by
  unfold inRange
  exact reduce_andi_ones _ _ _ _ e mask_apply rfl

/-- The gather reads, at (r, k), the table's entry (r, k): start index r is the word of r, which read signed
    and clamped into [0, 8191] is r. -/
theorem gather_apply {α : Type} (t : S8192x1024.Idx → α) (r : Fin 8192) (k : Fin 1024) :
    Host.gather gather_S8192x1024_S8192x1_S8192x1024_1_0_n_n_0_1_11024 t startIdx (ix2 r k) = t (ix2 r k) := by
  have hr : min (startIdx (ix2 r (0 : Fin 1))).toInt.toNat (8192 - 1) = r.val := by
    rw [startIdx_apply]
    show min (BitVec.ofNat 32 r.val).toInt.toNat (8192 - 1) = r.val
    rw [toInt_row _ r.isLt]
    have := r.isLt
    omega
  refine (Cert.Lib.RowGather.rowGather_apply (N := 8192) (E := 8192) (n := 1024) (by omega)
    gather_S8192x1024_S8192x1_S8192x1024_1_0_n_n_0_1_11024_wf t startIdx r k).trans ?_
  exact congrArg t (funext fun a => match a with
    | ⟨0, _⟩ => Fin.ext hr
    | ⟨1, _⟩ => rfl)

/-- The result's entry (0, r, k) is the table's entry (r, k). -/
theorem out_apply (t : (⟨S8192x1024, .f32⟩ : BufTy).Contents (Elt F)) (j : Cert.Spec.So.Idx) :
    out t j = t (Cert.Spec.rc j) := by
  unfold out
  refine (broadcastInDim_apply ![1, 2] bcast_S8192x1024_S1x8192x1024_1_2 _ j (Cert.Spec.rc j)
    (fun a => match a with | ⟨0, _⟩ => rfl | ⟨1, _⟩ => rfl)).trans ?_
  rw [select_apply]
  rw [broadcastInDim_apply ![0] bcast_S8192_S8192x1024_0 inRange (Cert.Spec.rc j) (ix1 (n := 8192) (j 1))
    (fun a => match a with | ⟨0, _⟩ => rfl)]
  rw [inRange_apply, select_one]
  exact gather_apply t (j 1) (j 2)

/-- The composed term is the specification's function of the table. -/
theorem out_eq_G (t : (⟨S8192x1024, .f32⟩ : BufTy).Contents (Elt F)) : out t = Cert.Spec.G t :=
  funext fun j => out_apply t j

/-! ## The statement -/

/-- From any memory with zero counters every weakly fair execution of the reference terminates, with the result
    buffer at the specification's function of the table and both arguments unchanged. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v2)
            = Cert.Spec.G (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c =>
      ⟨(h c main_v2).trans ((out_eq (launchContents m c)).trans (out_eq_G _)),
        (h c main_arg0).trans (arg0_eq (launchContents m c)),
        (h c main_arg1).trans (arg1_eq (launchContents m c))⟩)
    (run_after m g)

end Cert.Proof.RefRun

end
-- ==== Proof.lean ====
/-
  The kernel copies the embedding table into the result: thirty-two vector subcores of the two SparseCores
  each move 256 rows of the table, sixteen rows at a time, through buffers of their own into the same rows of
  the result, which has one more, leading, axis of extent one. The reference looks up row r of the table for
  every r from 0 to 8191 in order and adds that leading axis. Both leave, at the entry (0, r, k) of the result,
  the table's entry (r, k): nothing is computed on the entries, so the two results are equal as extended reals
  whatever the table holds, and the precondition is never opened.

  The three frames: each kernel program's run (every thread of the device, under every weakly fair schedule)
  ends with the arguments as they were, being the run below with the result's value dropped; the reference's
  likewise from its own run. The idealization rewrote nothing, so there is nothing to preserve. The two results
  are one function of the table, the specification's `G`.
-/
import proofs.«213541_g83141976916863_cont_9to1c4b_20_9_alg».proof.Defs
import proofs.«213541_g83141976916863_cont_9to1c4b_20_9_alg».proof.Proof.Gen.Kernel
import proofs.«213541_g83141976916863_cont_9to1c4b_20_9_alg».proof.Proof.Gen.Kernel.Skeleton
import proofs.«213541_g83141976916863_cont_9to1c4b_20_9_alg».proof.Proof.Gen.KernelIdeal
import proofs.«213541_g83141976916863_cont_9to1c4b_20_9_alg».proof.Proof.Gen.KernelIdeal.Skeleton
import proofs.«213541_g83141976916863_cont_9to1c4b_20_9_alg».proof.Proof.Gen.ReferenceIdeal
import proofs.«213541_g83141976916863_cont_9to1c4b_20_9_alg».proof.Proof.Gen.Pre_finite_inputs
import Idealize.ShloMosaic.Adequacy
import Idealize.ShloMosaic.Init
import proofs.«213541_g83141976916863_cont_9to1c4b_20_9_alg».proof.Proof.KI.Launch
import proofs.«213541_g83141976916863_cont_9to1c4b_20_9_alg».proof.Proof.KB.Launch
import proofs.«213541_g83141976916863_cont_9to1c4b_20_9_alg».proof.Proof.RefRun

noncomputable section

namespace Cert.Proof

open Idealize.ShloMosaic Idealize.SL.Sem

/-- The kernel as printed: it runs to its end and leaves both arguments as they were. -/
theorem frame_kernel : @Cert.frame_Kernel Cert.Kernel.Gen.facts Cert.Pre_finite_inputs.Gen.facts := fun m ρ _ =>
  (θ_run Cert.Kernel.defs _ _).mono (fun _ h c => (h c).2) (Cert.Proof.KB.run_main (F := Bits) m ρ)

/-- The idealized kernel likewise. -/
theorem frame_kernelIdeal : @Cert.frame_KernelIdeal Cert.KernelIdeal.Gen.facts Cert.Pre_finite_inputs.Gen.facts := fun m ρ _ =>
  (θ_run Cert.KernelIdeal.defs _ _).mono (fun _ h c => (h c).2) (Cert.Proof.KI.run_main (F := Ideal) m ρ)

/-- The reference likewise: its run with the result's value dropped. -/
theorem frame_referenceIdeal : @Cert.frame_ReferenceIdeal Cert.ReferenceIdeal.Gen.facts Cert.Pre_finite_inputs.Gen.facts := fun m ρ _ =>
  (θ_run Cert.ReferenceIdeal.defs _ _).mono (fun _ h c => (h c).2) (Cert.Proof.RefRun.run m ρ)

/-- Both idealized programs end with the result at `G` of the table: the kernel by moving the rows, the reference by
    looking each up; the tables agree, so the results do. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Proof.KI.Gout m c, ?_, ?_⟩
  · exact (θ_run Cert.KernelIdeal.defs _ _).mono (fun _ h c => h c) (Cert.Proof.KI.run_main (F := Ideal) m ρ)
  · refine (θ_run Cert.ReferenceIdeal.defs _ _).mono (fun _ h c => ⟨?_, (h c).2⟩) (Cert.Proof.RefRun.run m' ρ')
    rw [(h c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
